-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S2304 : Shape := ⟨1, ![2304]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_

variable [Facts]

def fn {F : FTy → Type} [FloatOps F] (main_arg0 : FVec F S8x1024x768 .f32) (main_arg1 : FVec F S2304x768 .f32) (main_arg2 : FVec F S2304 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  main_v13
-- ==== Kernel.lean ====
abbrev S8x1024x768 : Shape := ⟨3, ![8, 1024, 768]⟩
abbrev S2304x768 : Shape := ⟨2, ![2304, 768]⟩
abbrev S2304 : Shape := ⟨1, ![2304]⟩
abbrev S8192x768 : Shape := ⟨2, ![8192, 768]⟩
abbrev S8192x2304 : Shape := ⟨2, ![8192, 2304]⟩
abbrev S512x768 : Shape := ⟨2, ![512, 768]⟩
abbrev S512x2304 : Shape := ⟨2, ![512, 2304]⟩
abbrev S1x2304 : Shape := ⟨2, ![1, 2304]⟩
abbrev S8x1024x2304 : Shape := ⟨3, ![8, 1024, 2304]⟩
abbrev S8x1024x12x64 : Shape := ⟨4, ![8, 1024, 12, 64]⟩
abbrev S8x12x1024x64 : Shape := ⟨4, ![8, 12, 1024, 64]⟩
abbrev S96x1024x64 : Shape := ⟨3, ![96, 1024, 64]⟩
abbrev S4x512x64 : Shape := ⟨3, ![4, 512, 64]⟩
abbrev S4x512x512 : Shape := ⟨3, ![4, 512, 512]⟩

abbrev nBuf : Space → Nat
  | .hbm => 23
  | .vmem => 15
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S2304, .f32⟩
  | .hbm, ⟨3, _⟩ => ⟨S2304x768, .bf16⟩
  | .hbm, ⟨4, _⟩ => ⟨S8192x768, .f32⟩
  | .hbm, ⟨5, _⟩ => ⟨S8192x2304, .bf16⟩
  | .hbm, ⟨6, _⟩ => ⟨S8x1024x2304, .bf16⟩
  | .hbm, ⟨7, _⟩ => ⟨S8x1024x768, .bf16⟩
  | .hbm, ⟨8, _⟩ => ⟨S8x1024x768, .bf16⟩
  | .hbm, ⟨9, _⟩ => ⟨S8x1024x768, .bf16⟩
  | .hbm, ⟨10, _⟩ => ⟨S8x1024x12x64, .bf16⟩
  | .hbm, ⟨11, _⟩ => ⟨S8x12x1024x64, .bf16⟩
  | .hbm, ⟨12, _⟩ => ⟨S96x1024x64, .bf16⟩
  | .hbm, ⟨13, _⟩ => ⟨S8x1024x12x64, .bf16⟩
  | .hbm, ⟨14, _⟩ => ⟨S8x12x1024x64, .bf16⟩
  | .hbm, ⟨15, _⟩ => ⟨S96x1024x64, .bf16⟩
  | .hbm, ⟨16, _⟩ => ⟨S8x1024x12x64, .bf16⟩
  | .hbm, ⟨17, _⟩ => ⟨S8x12x1024x64, .bf16⟩
  | .hbm, ⟨18, _⟩ => ⟨S96x1024x64, .bf16⟩
  | .hbm, ⟨19, _⟩ => ⟨S96x1024x64, .f32⟩
  | .hbm, ⟨20, _⟩ => ⟨S8x12x1024x64, .f32⟩
  | .hbm, ⟨21, _⟩ => ⟨S8x1024x12x64, .f32⟩
  | .hbm, ⟨22, _⟩ => ⟨S8x1024x768, .f32⟩
  | .local _ .vmem, ⟨0, _⟩ => ⟨S512x768, .f32⟩
  | .local _ .vmem, ⟨1, _⟩ => ⟨S512x768, .f32⟩
  | .local _ .vmem, ⟨2, _⟩ => ⟨S2304x768, .bf16⟩
  | .local _ .vmem, ⟨3, _⟩ => ⟨S2304, .f32⟩
  | .local _ .vmem, ⟨4, _⟩ => ⟨S512x2304, .bf16⟩
  | .local _ .vmem, ⟨5, _⟩ => ⟨S512x2304, .bf16⟩
  | .local _ .vmem, ⟨6, _⟩ => ⟨S4x512x64, .bf16⟩
  | .local _ .vmem, ⟨7, _⟩ => ⟨S4x512x64, .bf16⟩
  | .local _ .vmem, ⟨8, _⟩ => ⟨S4x512x64, .bf16⟩
  | .local _ .vmem, ⟨9, _⟩ => ⟨S4x512x64, .bf16⟩
  | .local _ .vmem, ⟨10, _⟩ => ⟨S4x512x64, .bf16⟩
  | .local _ .vmem, ⟨11, _⟩ => ⟨S4x512x64, .bf16⟩
  | .local _ .vmem, ⟨12, _⟩ => ⟨S4x512x64, .f32⟩
  | .local _ .vmem, ⟨13, _⟩ => ⟨S4x512x64, .f32⟩
  | .local _ .vmem, ⟨14, _⟩ => ⟨S4x512x64, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![24, 2, 2], ![false, false, false]⟩

def k1_cond3 (i : grid1.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S4x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S4x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S4x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S4x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  shapeCasts_S8x1024x768_S8192x768 : S8x1024x768.ShapeCasts S8192x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S2304_S2304_0 : ∀ a, (![0] : Fin 1 → Nat) a + S2304.size a ≤ S2304.size a
  h_S2304 : 0 < S2304.numel
  shapeCasts_S2304_S1x2304 : S2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  shapeCasts_S8192x2304_S8x1024x2304 : S8192x2304.ShapeCasts S8x1024x2304
  slices_S8x1024x2304_S8x1024x768_0_0_0 : S8x1024x2304.Slices ![0, 0, 0] S8x1024x768
  slices_S8x1024x2304_S8x1024x768_0_0_768 : S8x1024x2304.Slices ![0, 0, 768] S8x1024x768
  slices_S8x1024x2304_S8x1024x768_0_0_1536 : S8x1024x2304.Slices ![0, 0, 1536] S8x1024x768
  shapeCasts_S8x1024x768_S8x1024x12x64 : S8x1024x768.ShapeCasts S8x1024x12x64
  transposes_S8x1024x12x64_S8x12x1024x64_0_2_1_3 : S8x1024x12x64.Transposes [0, 2, 1, 3] S8x12x1024x64
  shapeCasts_S8x12x1024x64_S96x1024x64 : S8x12x1024x64.ShapeCasts S96x1024x64
  inb_S4x512x64_S4x512x64_0_0_0 : ∀ a, (![0, 0, 0] : Fin 3 → Nat) a + S4x512x64.size a ≤ S4x512x64.size a
  h_S4x512x64 : 0 < S4x512x64.numel
  shapeCasts_S4x512x64_S4x512x64 : S4x512x64.ShapeCasts S4x512x64
  iota_S4x512x512_d1_w32 : S4x512x512.Iotas .tc 32 [1]
  iota_S4x512x512_d2_w32 : S4x512x512.Iotas .tc 32 [2]
  shapeCasts_S96x1024x64_S8x12x1024x64 : S96x1024x64.ShapeCasts S8x12x1024x64
  transposes_S8x12x1024x64_S8x1024x12x64_0_2_1_3 : S8x12x1024x64.Transposes [0, 2, 1, 3] S8x1024x12x64
  shapeCasts_S8x1024x12x64_S8x1024x768 : S8x1024x12x64.ShapeCasts S8x1024x768
  dot_S512x768_S2304x768_S512x2304_1_1_0_0_n_n_wf : DotDims.WF S512x768 S2304x768 S512x2304 [1] [1] [0] [0] [] []
  dot_S4x512x64_S4x512x64_S4x512x512_2_2_1_1_0_0_wf : DotDims.WF S4x512x64 S4x512x64 S4x512x512 [2] [2] [1] [1] [0] [0]
  dot_S4x512x512_S4x512x64_S4x512x64_2_1_1_2_0_0_wf : DotDims.WF S4x512x512 S4x512x64 S4x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S8192x2304.size a
  hwx0_3 : ∀ i : grid0.Coords, EltTy.bits .bf16 = 32 ∨ (Rect.block (s := S8192x2304) S512x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x64.size a ≤ S96x1024x64.size a
  hwx1_0 : ∀ i : grid1.Coords, EltTy.bits .bf16 = 32 ∨ (Rect.block (s := S96x1024x64) S4x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x64.size a ≤ S96x1024x64.size a
  hwx1_1 : ∀ i : grid1.Coords, EltTy.bits .bf16 = 32 ∨ (Rect.block (s := S96x1024x64) S4x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512x64.size a ≤ S96x1024x64.size a
  hwx1_2 : ∀ i : grid1.Coords, EltTy.bits .bf16 = 32 ∨ (Rect.block (s := S96x1024x64) S4x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512x64.size a ≤ S96x1024x64.size a
  hwx1_3 : ∀ i : grid1.Coords, EltTy.bits .f32 = 32 ∨ (Rect.block (s := S96x1024x64) S4x512x64.size (cc1_transform_3 i) (hinb1_3 i)).WholeWords (EltTy.packing .f32)

variable [Facts₀]

def dot_S512x768_S2304x768_S512x2304_1_1_0_0_n_n : DotDims S512x768 S2304x768 S512x2304 where
  lhsContracting := [1]
  rhsContracting := [1]
  lhsNonContracting := [0]
  rhsNonContracting := [0]
  lhsBatch := []
  rhsBatch := []
  wf := dot_S512x768_S2304x768_S512x2304_1_1_0_0_n_n_wf
def dot_S4x512x64_S4x512x64_S4x512x512_2_2_1_1_0_0 : DotDims S4x512x64 S4x512x64 S4x512x512 where
  lhsContracting := [2]
  rhsContracting := [2]
  lhsNonContracting := [1]
  rhsNonContracting := [1]
  lhsBatch := [0]
  rhsBatch := [0]
  wf := dot_S4x512x64_S4x512x64_S4x512x512_2_2_1_1_0_0_wf
def dot_S4x512x512_S4x512x64_S4x512x64_2_1_1_2_0_0 : DotDims S4x512x512 S4x512x64 S4x512x64 where
  lhsContracting := [2]
  rhsContracting := [1]
  lhsNonContracting := [1]
  rhsNonContracting := [2]
  lhsBatch := [0]
  rhsBatch := [0]
  wf := dot_S4x512x512_S4x512x64_S4x512x64_2_1_1_2_0_0_wf

abbrev win0_0 : Pipeline.Window sig grid0 :=
  Pipeline.Window.ofSpec (Memref.whole main_v1) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S4x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S4x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x1024x768 : Shape := ⟨3, ![8, 1024, 768]⟩
abbrev S2304x768 : Shape := ⟨2, ![2304, 768]⟩
abbrev S2304 : Shape := ⟨1, ![2304]⟩
abbrev S8x1024x2304 : Shape := ⟨3, ![8, 1024, 2304]⟩
abbrev S1x1x2304 : Shape := ⟨3, ![1, 1, 2304]⟩
abbrev S8x1024x12x64 : Shape := ⟨4, ![8, 1024, 12, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S2304, .f32⟩
  | .hbm, ⟨3, _⟩ => ⟨S8x1024x2304, .f32⟩
  | .hbm, ⟨4, _⟩ => ⟨S1x1x2304, .f32⟩
  | .hbm, ⟨5, _⟩ => ⟨S8x1024x2304, .f32⟩
  | .hbm, ⟨6, _⟩ => ⟨S8x1024x2304, .f32⟩
  | .hbm, ⟨7, _⟩ => ⟨S8x1024x768, .f32⟩
  | .hbm, ⟨8, _⟩ => ⟨S8x1024x768, .f32⟩
  | .hbm, ⟨9, _⟩ => ⟨S8x1024x768, .f32⟩
  | .hbm, ⟨10, _⟩ => ⟨S8x1024x12x64, .f32⟩
  | .hbm, ⟨11, _⟩ => ⟨S8x12x1024x64, .f32⟩
  | .hbm, ⟨12, _⟩ => ⟨S8x1024x12x64, .f32⟩
  | .hbm, ⟨13, _⟩ => ⟨S8x12x1024x64, .f32⟩
  | .hbm, ⟨14, _⟩ => ⟨S8x1024x12x64, .f32⟩
  | .hbm, ⟨15, _⟩ => ⟨S8x12x1024x64, .f32⟩
  | .hbm, ⟨16, _⟩ => ⟨S8x12x1024x1024, .f32⟩
  | .hbm, ⟨17, _⟩ => ⟨S_, .f32⟩
  | .hbm, ⟨18, _⟩ => ⟨S8x12x1024x1024, .f32⟩
  | .hbm, ⟨19, _⟩ => ⟨S8x12x1024x1024, .f32⟩
  | .hbm, ⟨20, _⟩ => ⟨S_, .i1⟩
  | .hbm, ⟨21, _⟩ => ⟨S1024x1024, .i1⟩
  | .hbm, ⟨22, _⟩ => ⟨S1024x1024, .i32⟩
  | .hbm, ⟨23, _⟩ => ⟨S_, .i32⟩
  | .hbm, ⟨24, _⟩ => ⟨S1024x1024, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S_, .i1⟩
  | .hbm, ⟨29, _⟩ => ⟨S1024x1024, .i1⟩
  | .hbm, ⟨30, _⟩ => ⟨S1024x1024, .i1⟩
  | .hbm, ⟨31, _⟩ => ⟨S1x1x1024x1024, .i1⟩
  | .hbm, ⟨32, _⟩ => ⟨S_, .f32⟩
  | .hbm, ⟨33, _⟩ => ⟨S8x12x1024x1024, .f32⟩
  | .hbm, ⟨34, _⟩ => ⟨S8x12x1024x1024, .f32⟩
  | .hbm, ⟨35, _⟩ => ⟨S_, .f32⟩
  | .hbm, ⟨36, _⟩ => ⟨S_, .f32⟩
  | .hbm, ⟨37, _⟩ => ⟨S8x12x1024x1024, .i1⟩
  | .hbm, ⟨38, _⟩ => ⟨S8x12x1024x1024, .f32⟩
  | .hbm, ⟨39, _⟩ => ⟨S8x12x1024x1024, .f32⟩
  | .hbm, ⟨40, _⟩ => ⟨S8x12x1024x64, .f32⟩
  | .hbm, ⟨41, _⟩ => ⟨S8x1024x12x64, .f32⟩
  | .hbm, ⟨42, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v17 : Ref sig .tc := ⟨.hbm, 30, rfl⟩
abbrev main_v18 : Ref sig .tc := ⟨.hbm, 31, rfl⟩
abbrev main_call1_cst : Ref sig .tc := ⟨.hbm, 32, rfl⟩
abbrev main_call1_v0 : Ref sig .tc := ⟨.hbm, 33, rfl⟩
abbrev main_v19 : Ref sig .tc := ⟨.hbm, 34, rfl⟩
abbrev main_cst_0 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S8x1024x2304_0_1_2 : S1x1x2304.BroadcastsInDim S8x1024x2304 (![0, 1, 2] : Fin 3 → Fin S8x1024x2304.rank)
  slices_S8x1024x2304_S8x1024x768_0_0_0 : S8x1024x2304.Slices ![0, 0, 0] S8x1024x768
  slices_S8x1024x2304_S8x1024x768_0_0_768 : S8x1024x2304.Slices ![0, 0, 768] S8x1024x768
  slices_S8x1024x2304_S8x1024x768_0_0_1536 : S8x1024x2304.Slices ![0, 0, 1536] S8x1024x768
  shapeCasts_S8x1024x768_S8x1024x12x64 : S8x1024x768.ShapeCasts S8x1024x12x64
  transposes_S8x1024x12x64_S8x12x1024x64_0_2_1_3 : S8x1024x12x64.Transposes [0, 2, 1, 3] S8x12x1024x64
  bcast_S_S8x12x1024x1024 : S_.BroadcastsInDim S8x12x1024x1024 (![] : Fin 0 → Fin S8x12x1024x1024.rank)
  bcast_S_S1024x1024 : S_.BroadcastsInDim S1024x1024 (![] : Fin 0 → Fin S1024x1024.rank)
  bcast_S1024x1024_S1x1x1024x1024_2_3 : S1024x1024.BroadcastsInDim S1x1x1024x1024 (![2, 3] : Fin 2 → Fin S1x1x1024x1024.rank)
  bcast_S1x1x1024x1024_S8x12x1024x1024_0_1_2_3 : S1x1x1024x1024.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf

class Facts : Prop extends Facts₀ where

variable [Facts]
-- ==== Proof.QkvBodyK.lean ====
/-
  The projection kernel (the first of the program's two kernel regions) as the pipeline library wants it, at any
  float instance and at a PARAMETER `V`, the buffer contents the region is entered with.
  Each grid point `t` (sixteen of them) takes rows 512·t … 512·t + 511 of the flattened input, the whole weight and
  the whole bias, and stores one 512 × 2304 block: the body's single store, whose value is the skeleton's payload of
  the three loaded blocks. So after the body the output window's buffer is that payload read through the one
  rectangle that covers the buffer, the three input buffers are as found, and nothing else is touched.
-/
import proofs.«159418_j18717467476434_2_alg».proof.Proof.Gen.Kernel.Launch
import proofs.«159418_j18717467476434_2_alg».proof.Proof.Gen.Kernel.Skeleton
import proofs.«159418_j18717467476434_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.QkvBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block: its staging buffer holds the block of the point, for any proof data over `V`'s array that
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight: fetched once, its block index never moves, so the buffer holds the whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias: likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rRows : Rect S512x768 := Rect.unit (s := S512x768) ![0, 0] S512x768.size inb_S512x768_S512x768_0_0
abbrev rWeight : Rect S2304x768 := Rect.unit (s := S2304x768) ![0, 0] S2304x768.size inb_S2304x768_S2304x768_0_0
abbrev rBias : Rect S2304 := Rect.unit (s := S2304) ![0] S2304.size inb_S2304_S2304_0
abbrev rOut : Rect S512x2304 := Rect.unit (s := S512x2304) ![0, 0] S512x2304.size inb_S512x2304_S512x2304_0_0

/-- What the body leaves in the output window's buffer: its one store, the payload of the three loaded blocks. -/
def outBlock (x0 : Vec F S512x768 .f32) (x1 : Vec F S2304x768 .bf16) (x2 : Vec F S2304 .f32) : Vec F S512x2304 .bf16 :=
  View.canon [⟨rOut, k0_pay1 (View.ld x0 rRows) (View.ld x1 rWeight) (View.ld x2 rBias)⟩]

/-- The one store covers the buffer. -/
theorem coverOut (p0 : Vec F S512x2304 .bf16) (y : S512x2304.Idx) :
    ∃ pc ∈ ([⟨rOut, p0⟩] : List (View.Piece (Elt F) S512x2304 .bf16)), y ∈ pc.1.set :=
  View.cover_of_tiled [⟨rOut, p0⟩] S512x2304.size (by rfl) y

/-! ## The body's triple -/

set_option maxHeartbeats 1000000 in
/-- On whole staging memrefs, the inputs' at contents `x0 x1 x2` and the output's at anything, the body runs to the
    continuation with the inputs' as they were and the output's at `outBlock x0 x1 x2`. -/
theorem sound_kernel0 (c : Dev nD) (E : Set ℕ) (i : grid0.Coords) (arg1 : Memref sig .tc .vmem S512x768 .f32) (harg1 : arg1.IsWhole)
    (arg2 : Memref sig .tc .vmem S2304x768 .bf16) (harg2 : arg2.IsWhole) (arg3 : Memref sig .tc .vmem S2304 .f32) (harg3 : arg3.IsWhole)
    (arg4 : Memref sig .tc .vmem S512x2304 .bf16) (harg4 : arg4.IsWhole)
    (x0 : Vec F S512x768 .f32) (x1 : Vec F S2304x768 .bf16) (x2 : Vec F S2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The proof data -/

/-- The pipeline's proof data on core `c`: the arrays as the region finds them; after the body each input's buffer
    at its block, the output's at `outBlock` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outBlock (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = outBlock (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.QkvBody

end
-- ==== Proof.AttnRunsK.lean ====
/- The attention kernel's body, case by case: the three conditionals of `cc1__attn_kernel` in closed form over
   the grid, where its windows are idle, the invariant the region is launched with (the scratch accumulator singled
   out), and the body's triple in each of the three cases the grid meets, with what each case leaves in the
   accumulator and in the output's staging buffer stated outright over the payload names of the skeleton. Generic
   in the float instance. -/
import proofs.«159418_j18717467476434_2_alg».proof.Proof.Gen.Kernel.Launch
import proofs.«159418_j18717467476434_2_alg».proof.Proof.Gen.Kernel.Skeleton
import proofs.«159418_j18717467476434_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.AttnBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditionals of the attention body, from the grid coordinates (g, qt, kt) -/

/-- The first `scf.if`: the key/value step is the first of its row (kt = 0) — the accumulator is reset there. -/
abbrev resetAt (i : grid1.Coords) : Prop := (Scalar.cmpi .ne (Scalar.extui (Scalar.cmpi .eq (BitVec.ofNat 32 (i 2).val) 0#32)) 0#32) = 1#1
/-- It holds at the even points. -/
theorem resetAt_iff : ∀ t : Fin cfg1.N, resetAt (grid1.coords t) ↔ t.val % 2 = 0 :=
  (by decide +kernel : ∀ t : Fin grid1.N, resetAt (grid1.coords t) ↔ t.val % 2 = 0)

/-- The second `scf.if`: the key/value tile is not above the diagonal (kt ≤ qt) — a product is accumulated there. -/
abbrev accumAt (i : grid1.Coords) : Prop := (Scalar.cmpi .ne (Scalar.extui (Scalar.cmpi .sle (BitVec.ofNat 32 (i 2).val) (BitVec.ofNat 32 (i 1).val))) 0#32) = 1#1
/-- It holds at every point but those ≡ 1 (mod 4) (kt = 1, qt = 0). -/
theorem accumAt_iff : ∀ t : Fin cfg1.N, accumAt (grid1.coords t) ↔ t.val % 4 ≠ 1 :=
  (by decide +kernel : ∀ t : Fin grid1.N, accumAt (grid1.coords t) ↔ t.val % 4 ≠ 1)

/-- The third `scf.if`: the key/value step is the last of its row (kt = 1) — the accumulator is emitted there. -/
abbrev emitAt (i : grid1.Coords) : Prop := k1_cond3 i = 1#1
/-- It holds at the odd points. -/
theorem emitAt_iff : ∀ t : Fin cfg1.N, emitAt (grid1.coords t) ↔ t.val % 2 = 1 :=
  (by decide +kernel : ∀ t : Fin grid1.N, emitAt (grid1.coords t) ↔ t.val % 2 = 1)

/-! ## Where the windows are idle, and where the output is written back -/

/-- The three input windows are never idle. -/
theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Where the accumulator is not emitted the output window is idle, -/
theorem idle_out : ∀ t : Fin cfg1.N, ¬emitAt (grid1.coords t) → cfg1.idle 3 (grid1.coords t) = true := by decide +kernel
/-- and not written back; -/
theorem noFlush_out : ∀ t : Fin cfg1.N, ¬emitAt (grid1.coords t) → (cfg1.win 3).flush t = false := by decide +kernel
/-- where it is emitted the output window is live. -/
theorem live_out : ∀ t : Fin cfg1.N, emitAt (grid1.coords t) → cfg1.idle 3 (grid1.coords t) = false := by decide +kernel

/-- The literal zero offsets of the body's whole-block accesses, as the constant function. -/
theorem off_zero : (![0, 0, 0] : Fin S4x512x64.rank → Nat) = fun _ => 0 := by
  funext a; fin_cases a <;> rfl

/-! ## The staging memrefs at a point, the carried accumulator, and the region's invariant -/

/-- The scratch accumulator the kernel carries from point to point: a whole scoped buffer of its own,
    passed beside the windows. -/
abbrev accM : Memref sig .tc .vmem S4x512x64 .f32 := Memref.whole cc1_scratch0

/-- The TensorCore's scoped buffers that are neither a staging buffer of this call nor its accumulator — the
    six staging buffers of the projection call —, each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The invariant the launch hands the region, with the accumulator singled out as a memref owned at some
    contents: what the body obligation hands the body and takes back. -/
theorem PhiA1_eq (c : Dev nD) :
    (Pipeline.ΦA spec1 c : sProp 𝕄)
      = iprop(iprop((∃ d, owns (c : Thread nD τ) accM fullShare d) ∗ otherStaging c) ∗ (∃ r, prngReg c r)) := by
  unfold Pipeline.ΦA otherStaging; rw [scopedRest1_eq]; simp only [accM, owns_whole]
  refine BI.equiv_iff.mp ⟨?_, ?_⟩
  · show @BIBase.Entails (sProp 𝕄) _ _ _
    iintro ⟨⟨R0, R1, R2, R3, R4, R5, HS⟩, Hg⟩
    isplitr [Hg]
    · isplitl [HS]; · iexact HS
      isplitl [R0]; · iexact R0
      isplitl [R1]; · iexact R1
      isplitl [R2]; · iexact R2
      isplitl [R3]; · iexact R3
      isplitl [R4]; · iexact R4
      iexact R5
    iexact Hg
  · show @BIBase.Entails (sProp 𝕄) _ _ _
    iintro ⟨⟨HS, R0, R1, R2, R3, R4, R5⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      iexact HS
    iexact Hg

/-! ## The body's triple, case by case

On whole staging memrefs; the payloads `k1_pay1` (the zero block) and `k1_pay2` (accumulator plus the masked,
rectified score product applied to the value block) stay opaque. Every access of the body is a whole-block load or
store at zero offsets, so a load reads the contents and a store leaves its payload. -/

set_option maxHeartbeats 1000000 in
/-- CASE "reset and accumulate" (kt = 0: the points ≡ 0, 2 mod 4): the accumulator, whatever it held, is stored the
    zero block and then the step over it; the output's buffer is not touched. -/
theorem run_reset (c : Dev nD) (i : grid1.Coords) (arg3 : Memref sig .tc .vmem S4x512x64 .bf16) (harg3 : arg3.IsWhole) (arg4 : Memref sig .tc .vmem S4x512x64 .bf16) (harg4 : arg4.IsWhole) (arg5 : Memref sig .tc .vmem S4x512x64 .bf16) (harg5 : arg5.IsWhole) (arg6 : Memref sig .tc .vmem S4x512x64 .f32) (harg6 : arg6.IsWhole) (arg7 : Memref sig .tc .vmem S4x512x64 .f32) (harg7 : arg7.IsWhole) (hc1 : resetAt i) (hc2 : accumAt i) (hc3 : ¬emitAt i)
    (xq xk xv : Vec F S4x512x64 .bf16) (xo : Vec F S4x512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xo ∗ (∃ d, owns (c : Thread nD τ) arg7 fullShare d)
        ∗ (iprop(owns (c : Thread nD τ) arg3 fullShare xq ∗ owns (c : Thread nD τ) arg4 fullShare xk ∗ owns (c : Thread nD τ) arg5 fullShare xv
            ∗ owns (c : Thread nD τ) arg6 fullShare xo ∗ owns (c : Thread nD τ) arg7 fullShare (k1_pay2 i xq xk xv (k1_pay1 (F := F)))) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  rw [View.read_writes_eq_canon _ _ _ (fun y => ⟨_, List.mem_cons_self .., View.mem_set_unit_zero off_zero inb_S4x512x64_S4x512x64_0_0_0 y⟩)]
  rw [View.canon_cons_unit_zero off_zero]
  sl_unfold_words
  rw [View.readCov_unit_zero _ off_zero]
  simp only [View.readAt_eq_ld, Memref.IsWhole.read_unread, View.ld_unit_zero (S := S4x512x64) off_zero]

set_option maxHeartbeats 1000000 in
/-- CASE "emit only" (kt = 1, qt = 0: the points ≡ 1 mod 4): nothing is accumulated; the accumulator is copied into
    the output's buffer. The input buffers are not touched (they stay in the caller's frame). -/
theorem run_emit (c : Dev nD) (i : grid1.Coords) (arg3 : Memref sig .tc .vmem S4x512x64 .bf16) (harg3 : arg3.IsWhole) (arg4 : Memref sig .tc .vmem S4x512x64 .bf16) (harg4 : arg4.IsWhole) (arg5 : Memref sig .tc .vmem S4x512x64 .bf16) (harg5 : arg5.IsWhole) (arg6 : Memref sig .tc .vmem S4x512x64 .f32) (harg6 : arg6.IsWhole) (arg7 : Memref sig .tc .vmem S4x512x64 .f32) (harg7 : arg7.IsWhole) (hc1 : ¬resetAt i) (hc2 : ¬accumAt i) (hc3 : emitAt i)
    (xs : Vec F S4x512x64 .f32) (E : Set ℕ) (K : PUnit → sProp 𝕄) :
    iprop((∃ d, owns (c : Thread nD τ) arg6 fullShare d) ∗ owns (c : Thread nD τ) arg7 fullShare xs
        ∗ (iprop(owns (c : Thread nD τ) arg6 fullShare xs ∗ owns (c : Thread nD τ) arg7 fullShare xs) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%d3, %f3, -, H3⟩, ⟨%fs, %hfs, HS⟩, Hk⟩
  obtain rfl := harg7.eq_unread hfs
  sl_exec (disch := first | exact hc1 | exact hc2 | exact hc3)
  sl_step
  iapply Hk
  isplitl [H3]
  · iexists _; isplitr
    swap; · iexact H3
    ipureintro
    rw [View.read_writes_eq_canon _ _ _ (fun y => ⟨_, List.mem_cons_self .., View.mem_set_unit_zero off_zero inb_S4x512x64_S4x512x64_0_0_0 y⟩)]
    rw [View.canon_unit_zero off_zero]
    simp only [View.readAt_eq_ld, Memref.IsWhole.read_unread, View.ld_unit_zero (S := S4x512x64) off_zero]
  iexists _; isplitr; · ipureintro; exact harg7.read_unread _
  iexact HS

set_option maxHeartbeats 1000000 in
/-- CASE "accumulate and emit" (kt = 1, qt = 1: the points ≡ 3 mod 4): the step over what the accumulator held is
    stored into it and copied into the output's buffer. -/
theorem run_accum_emit (c : Dev nD) (i : grid1.Coords) (arg3 : Memref sig .tc .vmem S4x512x64 .bf16) (harg3 : arg3.IsWhole) (arg4 : Memref sig .tc .vmem S4x512x64 .bf16) (harg4 : arg4.IsWhole) (arg5 : Memref sig .tc .vmem S4x512x64 .bf16) (harg5 : arg5.IsWhole) (arg6 : Memref sig .tc .vmem S4x512x64 .f32) (harg6 : arg6.IsWhole) (arg7 : Memref sig .tc .vmem S4x512x64 .f32) (harg7 : arg7.IsWhole) (hc1 : ¬resetAt i) (hc2 : accumAt i) (hc3 : emitAt i)
    (xq xk xv : Vec F S4x512x64 .bf16) (xs : Vec F S4x512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d) ∗ owns (c : Thread nD τ) arg7 fullShare xs
        ∗ (iprop(owns (c : Thread nD τ) arg3 fullShare xq ∗ owns (c : Thread nD τ) arg4 fullShare xk ∗ owns (c : Thread nD τ) arg5 fullShare xv
            ∗ owns (c : Thread nD τ) arg6 fullShare (k1_pay2 i xq xk xv xs) ∗ owns (c : Thread nD τ) arg7 fullShare (k1_pay2 i xq xk xv xs)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_eq_canon _ _ _ (fun y => ⟨_, List.mem_cons_self .., View.mem_set_unit_zero off_zero inb_S4x512x64_S4x512x64_0_0_0 y⟩)]
    rw [View.canon_unit_zero off_zero]
    sl_unfold_words
    rw [View.readCov_unit_zero _ off_zero]
    simp only [View.readAt_eq_ld, Memref.IsWhole.read_unread, View.ld_unit_zero (S := S4x512x64) off_zero]
  iexists _; isplitr
  swap; · iexact HS
  ipureintro
  sl_unfold_words
  rw [View.read_writes_eq_canon _ _ _ (fun y => ⟨_, List.mem_cons_self .., View.mem_set_unit_zero off_zero inb_S4x512x64_S4x512x64_0_0_0 y⟩)]
  rw [View.canon_unit_zero off_zero]
  simp only [View.readAt_eq_ld, Memref.IsWhole.read_unread, View.ld_unit_zero (S := S4x512x64) off_zero]

end Cert.Kernel.AttnBody

end
-- ==== Proof.AttnBodyK.lean ====
/- The body obligation and proof data of the attention call's region (custom_call 1, pipeline `cfg1`), at a
   parameter `V` — the TensorCore's buffer contents when the region is entered — and generic in the float instance:
   the windows' blocks, each input's staging buffer at its block whether fetched or not, what the carried scratch
   accumulator and the output's staging buffer hold after each point (by recursion on the point, over the skeleton's
   payload names), the invariant tracking the accumulator, the proof data, and the body obligation by cases on the
   point's residue modulo 4, each case the corresponding triple of the runs module. -/
import proofs.«159418_j18717467476434_2_alg».proof.Proof.AttnRunsK

set_option maxRecDepth 16384

noncomputable section

namespace Cert.Kernel.AttnBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the attention call's region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key window, whose block index (g, min(kt, qt), 0) moves only at the points ≡ 0, 3 (mod 4). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value window, on the key window's index map. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator and the output's staging buffer hold after each point -/

/-- The accumulate step at point `t` over accumulator contents `s`: `s` plus the masked, rectified product of the
    point's query and key blocks applied to its value block (the body's second stored payload, kept opaque). -/
abbrev accStep (c : Dev nD) (t : Fin cfg1.N) (s : Vec F S4x512x64 .f32) : Vec F S4x512x64 .f32 :=
  k1_pay2 (grid1.coords t) (iblk1 V c 0 t) (iblk1 V c 1 t) (iblk1 V c 2 t) s

/-- THE ACCUMULATION. What the scratch accumulator holds after the body at position `n`, by recursion on the point:
    at an even point (kt = 0) the step over the zero block; at a point ≡ 1 (mod 4) (kt = 1 above the diagonal: nothing
    accumulated) what the point before left; at a point ≡ 3 (mod 4) the step over what the point before left. -/
def accAt (c : Dev nD) : (n : ℕ) → n < cfg1.N → Vec F S4x512x64 .f32
  | 0, hn => accStep V c ⟨0, hn⟩ (k1_pay1 (F := F))
  | n + 1, hn =>
    if (n + 1) % 2 = 0 then accStep V c ⟨n + 1, hn⟩ (k1_pay1 (F := F))
    else if (n + 1) % 4 = 1 then accAt c n (Nat.lt_of_succ_lt hn)
    else accStep V c ⟨n + 1, hn⟩ (accAt c n (Nat.lt_of_succ_lt hn))

/-- What the output window's staging buffer and the accumulator hold after the body at position `n` (in that order).
    At the odd points the body copies the accumulator into the output's buffer; at the even points it stores nothing
    there and the first component is a placeholder nothing reads (the window is idle and not written back). -/
def outsAt1 (c : Dev nD) (n : ℕ) (hn : n < cfg1.N) : Vec F S4x512x64 .f32 × Vec F S4x512x64 .f32 :=
  (accAt V c n hn, accAt V c n hn)

theorem outsAt1_fst (c : Dev nD) (n : ℕ) (hn : n < cfg1.N) : (outsAt1 V c n hn).1 = accAt V c n hn := rfl
theorem outsAt1_snd (c : Dev nD) (n : ℕ) (hn : n < cfg1.N) : (outsAt1 V c n hn).2 = accAt V c n hn := rfl

/-- At an even point the accumulator is the step over the zero block. -/
theorem accAt_even (c : Dev nD) (t : Fin cfg1.N) (h : t.val % 2 = 0) :
    accAt V c t.val t.isLt = accStep V c t (k1_pay1 (F := F)) := by
  obtain ⟨n, hn⟩ := t
  cases n with
  | zero => rfl
  | succ n => exact if_pos h

/-- At a point ≡ 1 (mod 4) the accumulator is what the point before left. -/
theorem accAt_one (c : Dev nD) (t : Fin cfg1.N) (h : t.val % 4 = 1) :
    accAt V c t.val t.isLt = accAt V c (t.val - 1) (Nat.lt_of_le_of_lt (Nat.sub_le _ _) t.isLt) := by
  obtain ⟨n, hn⟩ := t
  cases n with
  | zero => exact absurd (show (0 : ℕ) % 4 = 1 from h) (by decide)
  | succ n => exact (if_neg (by dsimp only at h; omega)).trans ((if_pos h).trans rfl)

/-- At a point ≡ 3 (mod 4) the accumulator is the step over what the point before left. -/
theorem accAt_three (c : Dev nD) (t : Fin cfg1.N) (h : t.val % 4 = 3) :
    accAt V c t.val t.isLt = accStep V c t (accAt V c (t.val - 1) (Nat.lt_of_le_of_lt (Nat.sub_le _ _) t.isLt)) := by
  obtain ⟨n, hn⟩ := t
  cases n with
  | zero => exact absurd (show (0 : ℕ) % 4 = 3 from h) (by decide)
  | succ n => exact (if_neg (by dsimp only at h; omega)).trans ((if_neg (by dsimp only at h; omega)).trans rfl)

/-! ### The step equations of `outsAt1` -/

/-- t ≡ 0, 2 (mod 4): the accumulator is reset and one product accumulated. -/
theorem outsAt1_snd_even (c : Dev nD) (t : Fin cfg1.N) (h : t.val % 2 = 0) :
    (outsAt1 V c t.val t.isLt).2 = accStep V c t (k1_pay1 (F := F)) := accAt_even V c t h

/-- t ≡ 1 (mod 4): the accumulator is kept and emitted. -/
theorem outsAt1_fst_one (c : Dev nD) (t : Fin cfg1.N) (h : t.val % 4 = 1) :
    (outsAt1 V c t.val t.isLt).1 = (outsAt1 V c (t.val - 1) (Nat.lt_of_le_of_lt (Nat.sub_le _ _) t.isLt)).2 := accAt_one V c t h
theorem outsAt1_snd_one (c : Dev nD) (t : Fin cfg1.N) (h : t.val % 4 = 1) :
    (outsAt1 V c t.val t.isLt).2 = (outsAt1 V c (t.val - 1) (Nat.lt_of_le_of_lt (Nat.sub_le _ _) t.isLt)).2 := accAt_one V c t h

/-- t ≡ 3 (mod 4): one more product is accumulated and the accumulator emitted. -/
theorem outsAt1_snd_three (c : Dev nD) (t : Fin cfg1.N) (h : t.val % 4 = 3) :
    (outsAt1 V c t.val t.isLt).2 = accStep V c t (outsAt1 V c (t.val - 1) (Nat.lt_of_le_of_lt (Nat.sub_le _ _) t.isLt)).2 := accAt_three V c t h
theorem outsAt1_fst_three (c : Dev nD) (t : Fin cfg1.N) (h : t.val % 4 = 3) :
    (outsAt1 V c t.val t.isLt).1 = (outsAt1 V c t.val t.isLt).2 := rfl

/-! ### The step equations, in the shape the value side reads them -/

theorem outs_even (c : Dev nD) (t : Fin cfg1.N) (h : t.val % 2 = 0) :
    (outsAt1 V c t.val t.isLt).2 = accStep V c t (k1_pay1 (F := F)) := accAt_even V c t h

theorem outs_one (c : Dev nD) (t : Fin cfg1.N) (h : t.val % 4 = 1) :
    (outsAt1 V c t.val t.isLt).1 = (outsAt1 V c (t.val - 1) (by have := t.isLt; omega)).2 := accAt_one V c t h

theorem outs_three (c : Dev nD) (t : Fin cfg1.N) (h : t.val % 4 = 3) :
    (outsAt1 V c t.val t.isLt).1 = accStep V c t (outsAt1 V c (t.val - 1) (by have := t.isLt; omega)).2 := accAt_three V c t h

/-! ## The region's invariant, tracking the accumulator -/

/-- The invariant before position `n`: before the first point what the launch hands the region (the accumulator at
    anything); afterwards the accumulator at what the point before left in it, the other scoped buffers at anything and
    the generator register at some state. -/
def PhiS (c : Dev nD) : (n : ℕ) → n ≤ cfg1.N → sProp 𝕄
  | 0, _ => Pipeline.ΦA spec1 c
  | n + 1, hn => iprop(iprop(owns (c : Thread nD τ) accM fullShare ((outsAt1 V c n hn).2) ∗ otherStaging c) ∗ (∃ r, prngReg c r))

theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(iprop(owns (c : Thread nD τ) accM fullShare ((outsAt1 V c n hn).2) ∗ otherStaging c) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop(owns (c : Thread nD τ) accM fullShare ((outsAt1 V c (n - 1) (by omega)).2) ∗ otherStaging c) ∗ (∃ r, prngReg c r)) := by
  cases n with
  | zero => exact absurd rfl hz
  | succ n => rfl

/-! ## The pipeline's proof data -/

/-- The proof data of the attention pipeline on core `c`: the arrays as the region finds them (`V`); after the body at
    point `t` each input's buffer at its block and the output's at `outsAt1`'s first component; the invariant tracking
    the accumulator (`PhiS`); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the
    point is in, and that case's triple applies; the invariant hands the body the accumulator at what the point before
    left (at anything at the first point) and takes it back at this point's contents; the output's buffer is handed
    back untouched where the window is idle; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 96 := lt_of_lt_of_eq t.isLt (show cfg1.N = 96 from N_1)
  rw [show (dat1 V c).leavesExact 0 t = owns (c : Thread nD τ) (st1_0 t) fullShare ((dat1 V c).after 0 t) from by
    unfold Dat.leavesExact; rw [live_q t], after1_0]
  rw [show (dat1 V c).leavesExact 1 t = owns (c : Thread nD τ) (st1_1 t) fullShare ((dat1 V c).after 1 t) from by
    unfold Dat.leavesExact; rw [live_k t], after1_1]
  rw [show (dat1 V c).leavesExact 2 t = owns (c : Thread nD τ) (st1_2 t) fullShare ((dat1 V c).after 2 t) from by
    unfold Dat.leavesExact; rw [live_v t], after1_2]
  by_cases he : t.val % 2 = 0
  · -- kt = 0: reset and accumulate; the output window idle
    have h1 : resetAt (grid1.coords t) := (resetAt_iff t).mpr he
    have h2 : accumAt (grid1.coords t) := (accumAt_iff t).mpr (by omega)
    have h3 : ¬emitAt (grid1.coords t) := fun h => by have := (emitAt_iff t).mp h; omega
    rw [Dat.leavesExact_idle (dat1 V c) 3 t (idle_out t h3) (noFlush_out t h3)]
    rw [outsAt1_snd_even V c t he]
    by_cases hz : t.val = 0
    · rw [PhiS_castSucc V c t, PhiS_zero V c _ _ hz, PhiA1_eq]
      iintro ⟨⟨⟨HS, HR⟩, Hg⟩, Ho, ⟨%d0, H0⟩, ⟨%d1, H1⟩, ⟨%d2, H2⟩, ⟨%d3, H3⟩⟩
      iapply (run_reset c (grid1.coords t) _ _ _ _ _ _ _ _ _ _ h1 h2 h3 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_reset c (grid1.coords t) _ _ _ _ _ _ _ _ _ _ h1 h2 h3 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists _; iexact H3
  · have h1 : ¬resetAt (grid1.coords t) := fun h => he ((resetAt_iff t).mp h)
    have h3 : emitAt (grid1.coords t) := (emitAt_iff t).mpr (by omega)
    have hz : t.val ≠ 0 := by omega
    rw [show (dat1 V c).leavesExact 3 t = owns (c : Thread nD τ) (st1_3 t) fullShare ((dat1 V c).after 3 t) from by
      unfold Dat.leavesExact; rw [live_out t h3], after1_3]
    rw [PhiS_castSucc V c t, PhiS_pos V c _ _ hz]
    by_cases hb : t.val % 4 = 1
    · -- kt = 1 above the diagonal: emit only
      have h2 : ¬accumAt (grid1.coords t) := fun h => (accumAt_iff t).mp h hb
      rw [outsAt1_fst_one V c t hb, outsAt1_snd_one V c t hb]
      iintro ⟨⟨⟨HS, HR⟩, Hg⟩, Ho, ⟨%d0, H0⟩, ⟨%d1, H1⟩, ⟨%d2, H2⟩, ⟨%d3, H3⟩⟩
      iapply (run_emit c (grid1.coords t) _ _ _ _ _ _ _ _ _ _ h1 h2 h3 _ Set.univ _)
      isplitl [H3]; · iexists _; iexact H3
      isplitl [HS]; · iexact HS
      iintro ⟨H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexact H3
    · -- kt = 1 on the diagonal: accumulate and emit
      have hc : t.val % 4 = 3 := by omega
      have h2 : accumAt (grid1.coords t) := (accumAt_iff t).mpr hb
      rw [outsAt1_fst_three V c t hc, outsAt1_snd_three V c t hc]
      iintro ⟨⟨⟨HS, HR⟩, Hg⟩, Ho, ⟨%d0, H0⟩, ⟨%d1, H1⟩, ⟨%d2, H2⟩, ⟨%d3, H3⟩⟩
      iapply (run_accum_emit c (grid1.coords t) _ _ _ _ _ _ _ _ _ _ h1 h2 h3 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS, HR⟩, Hg⟩
  isplitr [Hg]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Region

end Cert.Kernel.AttnBody

end
-- ==== Proof.RunK.lean ====
/-
  The whole program as a run of five segments — host operations, the projection kernel, host operations, the
  attention kernel, host operations — at any float instance. The buffer contents at each boundary are a fold from the
  launch memory: a stretch of host operations applies its operations; a kernel region leaves each of its arrays at
  what its write-backs leave (the library's fold of the proof data's blocks) and every other buffer as it found it.
  The run ends with every unscoped buffer at the last boundary's contents; the three argument arrays are written by
  no host operation and by no region, so they read back as launched.
-/
import proofs.«159418_j18717467476434_2_alg».proof.Proof.Gen.Kernel.Launch
import proofs.«159418_j18717467476434_2_alg».proof.Proof.Gen.Kernel.Skeleton
import proofs.«159418_j18717467476434_2_alg».proof.Proof.Gen.Kernel.Points
import proofs.«159418_j18717467476434_2_alg».proof.Proof.Gen.Kernel.Regions
import proofs.«159418_j18717467476434_2_alg».proof.Proof.QkvBodyK
import proofs.«159418_j18717467476434_2_alg».proof.Proof.AttnBodyK
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.QkvBody Cert.Kernel.AttnBody

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the projection kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention kernel's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents the run ends with. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The two kernel regions as segments -/

set_option backward.isDefEq.respectTransparency.types false in
/-- The projection kernel over the thread state: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered with every unscoped buffer at `W3`, left at `W4`. Its
    invariant starts as the scoped rest with the generator register and ends by giving them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm 1).1
          ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- From any memory with zero counters every weakly fair execution of the program terminates without a fault, and
    every unscoped buffer ends at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- The bias is an input array of the projection kernel: the pipeline leaves an input array as it found it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl

/-- THE FRAME: every weakly fair execution terminates, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Run

end
-- ==== Proof.QkvBody.lean ====
/-
  The projection kernel (the first of the program's two kernel regions) as the pipeline library wants it, at any
  float instance and at a PARAMETER `V`, the buffer contents the region is entered with.
  Each grid point `t` (sixteen of them) takes rows 512·t … 512·t + 511 of the flattened input, the whole weight and
  the whole bias, and stores one 512 × 2304 block: the body's single store, whose value is the skeleton's payload of
  the three loaded blocks. So after the body the output window's buffer is that payload read through the one
  rectangle that covers the buffer, the three input buffers are as found, and nothing else is touched.
-/
import proofs.«159418_j18717467476434_2_alg».proof.Proof.Gen.KernelIdeal.Launch
import proofs.«159418_j18717467476434_2_alg».proof.Proof.Gen.KernelIdeal.Skeleton
import proofs.«159418_j18717467476434_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.QkvBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block: its staging buffer holds the block of the point, for any proof data over `V`'s array that
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight: fetched once, its block index never moves, so the buffer holds the whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias: likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rRows : Rect S512x768 := Rect.unit (s := S512x768) ![0, 0] S512x768.size inb_S512x768_S512x768_0_0
abbrev rWeight : Rect S2304x768 := Rect.unit (s := S2304x768) ![0, 0] S2304x768.size inb_S2304x768_S2304x768_0_0
abbrev rBias : Rect S2304 := Rect.unit (s := S2304) ![0] S2304.size inb_S2304_S2304_0
abbrev rOut : Rect S512x2304 := Rect.unit (s := S512x2304) ![0, 0] S512x2304.size inb_S512x2304_S512x2304_0_0

/-- What the body leaves in the output window's buffer: its one store, the payload of the three loaded blocks. -/
def outBlock (x0 : Vec F S512x768 .f32) (x1 : Vec F S2304x768 .bf16) (x2 : Vec F S2304 .f32) : Vec F S512x2304 .bf16 :=
  View.canon [⟨rOut, k0_pay1 (View.ld x0 rRows) (View.ld x1 rWeight) (View.ld x2 rBias)⟩]

/-- The one store covers the buffer. -/
theorem coverOut (p0 : Vec F S512x2304 .bf16) (y : S512x2304.Idx) :
    ∃ pc ∈ ([⟨rOut, p0⟩] : List (View.Piece (Elt F) S512x2304 .bf16)), y ∈ pc.1.set :=
  View.cover_of_tiled [⟨rOut, p0⟩] S512x2304.size (by rfl) y

/-! ## The body's triple -/

set_option maxHeartbeats 1000000 in
/-- On whole staging memrefs, the inputs' at contents `x0 x1 x2` and the output's at anything, the body runs to the
    continuation with the inputs' as they were and the output's at `outBlock x0 x1 x2`. -/
theorem sound_kernel0 (c : Dev nD) (E : Set ℕ) (i : grid0.Coords) (arg1 : Memref sig .tc .vmem S512x768 .f32) (harg1 : arg1.IsWhole)
    (arg2 : Memref sig .tc .vmem S2304x768 .bf16) (harg2 : arg2.IsWhole) (arg3 : Memref sig .tc .vmem S2304 .f32) (harg3 : arg3.IsWhole)
    (arg4 : Memref sig .tc .vmem S512x2304 .bf16) (harg4 : arg4.IsWhole)
    (x0 : Vec F S512x768 .f32) (x1 : Vec F S2304x768 .bf16) (x2 : Vec F S2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The proof data -/

/-- The pipeline's proof data on core `c`: the arrays as the region finds them; after the body each input's buffer
    at its block, the output's at `outBlock` of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outBlock (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = outBlock (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.QkvBody

end
-- ==== Proof.AttnRuns.lean ====
/- The attention kernel's body, case by case: the three conditionals of `cc1__attn_kernel` in closed form over
   the grid, where its windows are idle, the invariant the region is launched with (the scratch accumulator singled
   out), and the body's triple in each of the three cases the grid meets, with what each case leaves in the
   accumulator and in the output's staging buffer stated outright over the payload names of the skeleton. Generic
   in the float instance. -/
import proofs.«159418_j18717467476434_2_alg».proof.Proof.Gen.KernelIdeal.Launch
import proofs.«159418_j18717467476434_2_alg».proof.Proof.Gen.KernelIdeal.Skeleton
import proofs.«159418_j18717467476434_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.AttnBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditionals of the attention body, from the grid coordinates (g, qt, kt) -/

/-- The first `scf.if`: the key/value step is the first of its row (kt = 0) — the accumulator is reset there. -/
abbrev resetAt (i : grid1.Coords) : Prop := (Scalar.cmpi .ne (Scalar.extui (Scalar.cmpi .eq (BitVec.ofNat 32 (i 2).val) 0#32)) 0#32) = 1#1
/-- It holds at the even points. -/
theorem resetAt_iff : ∀ t : Fin cfg1.N, resetAt (grid1.coords t) ↔ t.val % 2 = 0 :=
  (by decide +kernel : ∀ t : Fin grid1.N, resetAt (grid1.coords t) ↔ t.val % 2 = 0)

/-- The second `scf.if`: the key/value tile is not above the diagonal (kt ≤ qt) — a product is accumulated there. -/
abbrev accumAt (i : grid1.Coords) : Prop := (Scalar.cmpi .ne (Scalar.extui (Scalar.cmpi .sle (BitVec.ofNat 32 (i 2).val) (BitVec.ofNat 32 (i 1).val))) 0#32) = 1#1
/-- It holds at every point but those ≡ 1 (mod 4) (kt = 1, qt = 0). -/
theorem accumAt_iff : ∀ t : Fin cfg1.N, accumAt (grid1.coords t) ↔ t.val % 4 ≠ 1 :=
  (by decide +kernel : ∀ t : Fin grid1.N, accumAt (grid1.coords t) ↔ t.val % 4 ≠ 1)

/-- The third `scf.if`: the key/value step is the last of its row (kt = 1) — the accumulator is emitted there. -/
abbrev emitAt (i : grid1.Coords) : Prop := k1_cond3 i = 1#1
/-- It holds at the odd points. -/
theorem emitAt_iff : ∀ t : Fin cfg1.N, emitAt (grid1.coords t) ↔ t.val % 2 = 1 :=
  (by decide +kernel : ∀ t : Fin grid1.N, emitAt (grid1.coords t) ↔ t.val % 2 = 1)

/-! ## Where the windows are idle, and where the output is written back -/

/-- The three input windows are never idle. -/
theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Where the accumulator is not emitted the output window is idle, -/
theorem idle_out : ∀ t : Fin cfg1.N, ¬emitAt (grid1.coords t) → cfg1.idle 3 (grid1.coords t) = true := by decide +kernel
/-- and not written back; -/
theorem noFlush_out : ∀ t : Fin cfg1.N, ¬emitAt (grid1.coords t) → (cfg1.win 3).flush t = false := by decide +kernel
/-- where it is emitted the output window is live. -/
theorem live_out : ∀ t : Fin cfg1.N, emitAt (grid1.coords t) → cfg1.idle 3 (grid1.coords t) = false := by decide +kernel

/-- The literal zero offsets of the body's whole-block accesses, as the constant function. -/
theorem off_zero : (![0, 0, 0] : Fin S4x512x64.rank → Nat) = fun _ => 0 := by
  funext a; fin_cases a <;> rfl

/-! ## The staging memrefs at a point, the carried accumulator, and the region's invariant -/

/-- The scratch accumulator the kernel carries from point to point: a whole scoped buffer of its own,
    passed beside the windows. -/
abbrev accM : Memref sig .tc .vmem S4x512x64 .f32 := Memref.whole cc1_scratch0

/-- The TensorCore's scoped buffers that are neither a staging buffer of this call nor its accumulator — the
    six staging buffers of the projection call —, each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The invariant the launch hands the region, with the accumulator singled out as a memref owned at some
    contents: what the body obligation hands the body and takes back. -/
theorem PhiA1_eq (c : Dev nD) :
    (Pipeline.ΦA spec1 c : sProp 𝕄)
      = iprop(iprop((∃ d, owns (c : Thread nD τ) accM fullShare d) ∗ otherStaging c) ∗ (∃ r, prngReg c r)) := by
  unfold Pipeline.ΦA otherStaging; rw [scopedRest1_eq]; simp only [accM, owns_whole]
  refine BI.equiv_iff.mp ⟨?_, ?_⟩
  · show @BIBase.Entails (sProp 𝕄) _ _ _
    iintro ⟨⟨R0, R1, R2, R3, R4, R5, HS⟩, Hg⟩
    isplitr [Hg]
    · isplitl [HS]; · iexact HS
      isplitl [R0]; · iexact R0
      isplitl [R1]; · iexact R1
      isplitl [R2]; · iexact R2
      isplitl [R3]; · iexact R3
      isplitl [R4]; · iexact R4
      iexact R5
    iexact Hg
  · show @BIBase.Entails (sProp 𝕄) _ _ _
    iintro ⟨⟨HS, R0, R1, R2, R3, R4, R5⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      iexact HS
    iexact Hg

/-! ## The body's triple, case by case

On whole staging memrefs; the payloads `k1_pay1` (the zero block) and `k1_pay2` (accumulator plus the masked,
rectified score product applied to the value block) stay opaque. Every access of the body is a whole-block load or
store at zero offsets, so a load reads the contents and a store leaves its payload. -/

set_option maxHeartbeats 1000000 in
/-- CASE "reset and accumulate" (kt = 0: the points ≡ 0, 2 mod 4): the accumulator, whatever it held, is stored the
    zero block and then the step over it; the output's buffer is not touched. -/
theorem run_reset (c : Dev nD) (i : grid1.Coords) (arg3 : Memref sig .tc .vmem S4x512x64 .bf16) (harg3 : arg3.IsWhole) (arg4 : Memref sig .tc .vmem S4x512x64 .bf16) (harg4 : arg4.IsWhole) (arg5 : Memref sig .tc .vmem S4x512x64 .bf16) (harg5 : arg5.IsWhole) (arg6 : Memref sig .tc .vmem S4x512x64 .f32) (harg6 : arg6.IsWhole) (arg7 : Memref sig .tc .vmem S4x512x64 .f32) (harg7 : arg7.IsWhole) (hc1 : resetAt i) (hc2 : accumAt i) (hc3 : ¬emitAt i)
    (xq xk xv : Vec F S4x512x64 .bf16) (xo : Vec F S4x512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xo ∗ (∃ d, owns (c : Thread nD τ) arg7 fullShare d)
        ∗ (iprop(owns (c : Thread nD τ) arg3 fullShare xq ∗ owns (c : Thread nD τ) arg4 fullShare xk ∗ owns (c : Thread nD τ) arg5 fullShare xv
            ∗ owns (c : Thread nD τ) arg6 fullShare xo ∗ owns (c : Thread nD τ) arg7 fullShare (k1_pay2 i xq xk xv (k1_pay1 (F := F)))) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  rw [View.read_writes_eq_canon _ _ _ (fun y => ⟨_, List.mem_cons_self .., View.mem_set_unit_zero off_zero inb_S4x512x64_S4x512x64_0_0_0 y⟩)]
  rw [View.canon_cons_unit_zero off_zero]
  sl_unfold_words
  rw [View.readCov_unit_zero _ off_zero]
  simp only [View.readAt_eq_ld, Memref.IsWhole.read_unread, View.ld_unit_zero (S := S4x512x64) off_zero]

set_option maxHeartbeats 1000000 in
/-- CASE "emit only" (kt = 1, qt = 0: the points ≡ 1 mod 4): nothing is accumulated; the accumulator is copied into
    the output's buffer. The input buffers are not touched (they stay in the caller's frame). -/
theorem run_emit (c : Dev nD) (i : grid1.Coords) (arg3 : Memref sig .tc .vmem S4x512x64 .bf16) (harg3 : arg3.IsWhole) (arg4 : Memref sig .tc .vmem S4x512x64 .bf16) (harg4 : arg4.IsWhole) (arg5 : Memref sig .tc .vmem S4x512x64 .bf16) (harg5 : arg5.IsWhole) (arg6 : Memref sig .tc .vmem S4x512x64 .f32) (harg6 : arg6.IsWhole) (arg7 : Memref sig .tc .vmem S4x512x64 .f32) (harg7 : arg7.IsWhole) (hc1 : ¬resetAt i) (hc2 : ¬accumAt i) (hc3 : emitAt i)
    (xs : Vec F S4x512x64 .f32) (E : Set ℕ) (K : PUnit → sProp 𝕄) :
    iprop((∃ d, owns (c : Thread nD τ) arg6 fullShare d) ∗ owns (c : Thread nD τ) arg7 fullShare xs
        ∗ (iprop(owns (c : Thread nD τ) arg6 fullShare xs ∗ owns (c : Thread nD τ) arg7 fullShare xs) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%d3, %f3, -, H3⟩, ⟨%fs, %hfs, HS⟩, Hk⟩
  obtain rfl := harg7.eq_unread hfs
  sl_exec (disch := first | exact hc1 | exact hc2 | exact hc3)
  sl_step
  iapply Hk
  isplitl [H3]
  · iexists _; isplitr
    swap; · iexact H3
    ipureintro
    rw [View.read_writes_eq_canon _ _ _ (fun y => ⟨_, List.mem_cons_self .., View.mem_set_unit_zero off_zero inb_S4x512x64_S4x512x64_0_0_0 y⟩)]
    rw [View.canon_unit_zero off_zero]
    simp only [View.readAt_eq_ld, Memref.IsWhole.read_unread, View.ld_unit_zero (S := S4x512x64) off_zero]
  iexists _; isplitr; · ipureintro; exact harg7.read_unread _
  iexact HS

set_option maxHeartbeats 1000000 in
/-- CASE "accumulate and emit" (kt = 1, qt = 1: the points ≡ 3 mod 4): the step over what the accumulator held is
    stored into it and copied into the output's buffer. -/
theorem run_accum_emit (c : Dev nD) (i : grid1.Coords) (arg3 : Memref sig .tc .vmem S4x512x64 .bf16) (harg3 : arg3.IsWhole) (arg4 : Memref sig .tc .vmem S4x512x64 .bf16) (harg4 : arg4.IsWhole) (arg5 : Memref sig .tc .vmem S4x512x64 .bf16) (harg5 : arg5.IsWhole) (arg6 : Memref sig .tc .vmem S4x512x64 .f32) (harg6 : arg6.IsWhole) (arg7 : Memref sig .tc .vmem S4x512x64 .f32) (harg7 : arg7.IsWhole) (hc1 : ¬resetAt i) (hc2 : accumAt i) (hc3 : emitAt i)
    (xq xk xv : Vec F S4x512x64 .bf16) (xs : Vec F S4x512x64 .f32) (E : Set ℕ) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d) ∗ owns (c : Thread nD τ) arg7 fullShare xs
        ∗ (iprop(owns (c : Thread nD τ) arg3 fullShare xq ∗ owns (c : Thread nD τ) arg4 fullShare xk ∗ owns (c : Thread nD τ) arg5 fullShare xv
            ∗ owns (c : Thread nD τ) arg6 fullShare (k1_pay2 i xq xk xv xs) ∗ owns (c : Thread nD τ) arg7 fullShare (k1_pay2 i xq xk xv xs)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc1 | exact hc2 | exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_eq_canon _ _ _ (fun y => ⟨_, List.mem_cons_self .., View.mem_set_unit_zero off_zero inb_S4x512x64_S4x512x64_0_0_0 y⟩)]
    rw [View.canon_unit_zero off_zero]
    sl_unfold_words
    rw [View.readCov_unit_zero _ off_zero]
    simp only [View.readAt_eq_ld, Memref.IsWhole.read_unread, View.ld_unit_zero (S := S4x512x64) off_zero]
  iexists _; isplitr
  swap; · iexact HS
  ipureintro
  sl_unfold_words
  rw [View.read_writes_eq_canon _ _ _ (fun y => ⟨_, List.mem_cons_self .., View.mem_set_unit_zero off_zero inb_S4x512x64_S4x512x64_0_0_0 y⟩)]
  rw [View.canon_unit_zero off_zero]
  simp only [View.readAt_eq_ld, Memref.IsWhole.read_unread, View.ld_unit_zero (S := S4x512x64) off_zero]

end Cert.KernelIdeal.AttnBody

end
-- ==== Proof.AttnBody.lean ====
/- The body obligation and proof data of the attention call's region (custom_call 1, pipeline `cfg1`), at a
   parameter `V` — the TensorCore's buffer contents when the region is entered — and generic in the float instance:
   the windows' blocks, each input's staging buffer at its block whether fetched or not, what the carried scratch
   accumulator and the output's staging buffer hold after each point (by recursion on the point, over the skeleton's
   payload names), the invariant tracking the accumulator, the proof data, and the body obligation by cases on the
   point's residue modulo 4, each case the corresponding triple of the runs module. -/
import proofs.«159418_j18717467476434_2_alg».proof.Proof.AttnRuns

set_option maxRecDepth 16384

noncomputable section

namespace Cert.KernelIdeal.AttnBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the attention call's region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key window, whose block index (g, min(kt, qt), 0) moves only at the points ≡ 0, 3 (mod 4). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value window, on the key window's index map. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the accumulator and the output's staging buffer hold after each point -/

/-- The accumulate step at point `t` over accumulator contents `s`: `s` plus the masked, rectified product of the
    point's query and key blocks applied to its value block (the body's second stored payload, kept opaque). -/
abbrev accStep (c : Dev nD) (t : Fin cfg1.N) (s : Vec F S4x512x64 .f32) : Vec F S4x512x64 .f32 :=
  k1_pay2 (grid1.coords t) (iblk1 V c 0 t) (iblk1 V c 1 t) (iblk1 V c 2 t) s

/-- THE ACCUMULATION. What the scratch accumulator holds after the body at position `n`, by recursion on the point:
    at an even point (kt = 0) the step over the zero block; at a point ≡ 1 (mod 4) (kt = 1 above the diagonal: nothing
    accumulated) what the point before left; at a point ≡ 3 (mod 4) the step over what the point before left. -/
def accAt (c : Dev nD) : (n : ℕ) → n < cfg1.N → Vec F S4x512x64 .f32
  | 0, hn => accStep V c ⟨0, hn⟩ (k1_pay1 (F := F))
  | n + 1, hn =>
    if (n + 1) % 2 = 0 then accStep V c ⟨n + 1, hn⟩ (k1_pay1 (F := F))
    else if (n + 1) % 4 = 1 then accAt c n (Nat.lt_of_succ_lt hn)
    else accStep V c ⟨n + 1, hn⟩ (accAt c n (Nat.lt_of_succ_lt hn))

/-- What the output window's staging buffer and the accumulator hold after the body at position `n` (in that order).
    At the odd points the body copies the accumulator into the output's buffer; at the even points it stores nothing
    there and the first component is a placeholder nothing reads (the window is idle and not written back). -/
def outsAt1 (c : Dev nD) (n : ℕ) (hn : n < cfg1.N) : Vec F S4x512x64 .f32 × Vec F S4x512x64 .f32 :=
  (accAt V c n hn, accAt V c n hn)

theorem outsAt1_fst (c : Dev nD) (n : ℕ) (hn : n < cfg1.N) : (outsAt1 V c n hn).1 = accAt V c n hn := rfl
theorem outsAt1_snd (c : Dev nD) (n : ℕ) (hn : n < cfg1.N) : (outsAt1 V c n hn).2 = accAt V c n hn := rfl

/-- At an even point the accumulator is the step over the zero block. -/
theorem accAt_even (c : Dev nD) (t : Fin cfg1.N) (h : t.val % 2 = 0) :
    accAt V c t.val t.isLt = accStep V c t (k1_pay1 (F := F)) := by
  obtain ⟨n, hn⟩ := t
  cases n with
  | zero => rfl
  | succ n => exact if_pos h

/-- At a point ≡ 1 (mod 4) the accumulator is what the point before left. -/
theorem accAt_one (c : Dev nD) (t : Fin cfg1.N) (h : t.val % 4 = 1) :
    accAt V c t.val t.isLt = accAt V c (t.val - 1) (Nat.lt_of_le_of_lt (Nat.sub_le _ _) t.isLt) := by
  obtain ⟨n, hn⟩ := t
  cases n with
  | zero => exact absurd (show (0 : ℕ) % 4 = 1 from h) (by decide)
  | succ n => exact (if_neg (by dsimp only at h; omega)).trans ((if_pos h).trans rfl)

/-- At a point ≡ 3 (mod 4) the accumulator is the step over what the point before left. -/
theorem accAt_three (c : Dev nD) (t : Fin cfg1.N) (h : t.val % 4 = 3) :
    accAt V c t.val t.isLt = accStep V c t (accAt V c (t.val - 1) (Nat.lt_of_le_of_lt (Nat.sub_le _ _) t.isLt)) := by
  obtain ⟨n, hn⟩ := t
  cases n with
  | zero => exact absurd (show (0 : ℕ) % 4 = 3 from h) (by decide)
  | succ n => exact (if_neg (by dsimp only at h; omega)).trans ((if_neg (by dsimp only at h; omega)).trans rfl)

/-! ### The step equations of `outsAt1` -/

/-- t ≡ 0, 2 (mod 4): the accumulator is reset and one product accumulated. -/
theorem outsAt1_snd_even (c : Dev nD) (t : Fin cfg1.N) (h : t.val % 2 = 0) :
    (outsAt1 V c t.val t.isLt).2 = accStep V c t (k1_pay1 (F := F)) := accAt_even V c t h

/-- t ≡ 1 (mod 4): the accumulator is kept and emitted. -/
theorem outsAt1_fst_one (c : Dev nD) (t : Fin cfg1.N) (h : t.val % 4 = 1) :
    (outsAt1 V c t.val t.isLt).1 = (outsAt1 V c (t.val - 1) (Nat.lt_of_le_of_lt (Nat.sub_le _ _) t.isLt)).2 := accAt_one V c t h
theorem outsAt1_snd_one (c : Dev nD) (t : Fin cfg1.N) (h : t.val % 4 = 1) :
    (outsAt1 V c t.val t.isLt).2 = (outsAt1 V c (t.val - 1) (Nat.lt_of_le_of_lt (Nat.sub_le _ _) t.isLt)).2 := accAt_one V c t h

/-- t ≡ 3 (mod 4): one more product is accumulated and the accumulator emitted. -/
theorem outsAt1_snd_three (c : Dev nD) (t : Fin cfg1.N) (h : t.val % 4 = 3) :
    (outsAt1 V c t.val t.isLt).2 = accStep V c t (outsAt1 V c (t.val - 1) (Nat.lt_of_le_of_lt (Nat.sub_le _ _) t.isLt)).2 := accAt_three V c t h
theorem outsAt1_fst_three (c : Dev nD) (t : Fin cfg1.N) (h : t.val % 4 = 3) :
    (outsAt1 V c t.val t.isLt).1 = (outsAt1 V c t.val t.isLt).2 := rfl

/-! ### The step equations, in the shape the value side reads them -/

theorem outs_even (c : Dev nD) (t : Fin cfg1.N) (h : t.val % 2 = 0) :
    (outsAt1 V c t.val t.isLt).2 = accStep V c t (k1_pay1 (F := F)) := accAt_even V c t h

theorem outs_one (c : Dev nD) (t : Fin cfg1.N) (h : t.val % 4 = 1) :
    (outsAt1 V c t.val t.isLt).1 = (outsAt1 V c (t.val - 1) (by have := t.isLt; omega)).2 := accAt_one V c t h

theorem outs_three (c : Dev nD) (t : Fin cfg1.N) (h : t.val % 4 = 3) :
    (outsAt1 V c t.val t.isLt).1 = accStep V c t (outsAt1 V c (t.val - 1) (by have := t.isLt; omega)).2 := accAt_three V c t h

/-! ## The region's invariant, tracking the accumulator -/

/-- The invariant before position `n`: before the first point what the launch hands the region (the accumulator at
    anything); afterwards the accumulator at what the point before left in it, the other scoped buffers at anything and
    the generator register at some state. -/
def PhiS (c : Dev nD) : (n : ℕ) → n ≤ cfg1.N → sProp 𝕄
  | 0, _ => Pipeline.ΦA spec1 c
  | n + 1, hn => iprop(iprop(owns (c : Thread nD τ) accM fullShare ((outsAt1 V c n hn).2) ∗ otherStaging c) ∗ (∃ r, prngReg c r))

theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(iprop(owns (c : Thread nD τ) accM fullShare ((outsAt1 V c n hn).2) ∗ otherStaging c) ∗ (∃ r, prngReg c r)) := rfl

/-- Before a point that is not the first: the accumulator at what the point before left. -/
theorem PhiS_pos (c : Dev nD) (n : ℕ) (h : n ≤ cfg1.N) (hz : n ≠ 0) :
    PhiS V c n h = iprop(iprop(owns (c : Thread nD τ) accM fullShare ((outsAt1 V c (n - 1) (by omega)).2) ∗ otherStaging c) ∗ (∃ r, prngReg c r)) := by
  cases n with
  | zero => exact absurd rfl hz
  | succ n => rfl

/-! ## The pipeline's proof data -/

/-- The proof data of the attention pipeline on core `c`: the arrays as the region finds them (`V`); after the body at
    point `t` each input's buffer at its block and the output's at `outsAt1`'s first component; the invariant tracking
    the accumulator (`PhiS`); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the
    point is in, and that case's triple applies; the invariant hands the body the accumulator at what the point before
    left (at anything at the first point) and takes it back at this point's contents; the output's buffer is handed
    back untouched where the window is idle; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 96 := lt_of_lt_of_eq t.isLt (show cfg1.N = 96 from N_1)
  rw [show (dat1 V c).leavesExact 0 t = owns (c : Thread nD τ) (st1_0 t) fullShare ((dat1 V c).after 0 t) from by
    unfold Dat.leavesExact; rw [live_q t], after1_0]
  rw [show (dat1 V c).leavesExact 1 t = owns (c : Thread nD τ) (st1_1 t) fullShare ((dat1 V c).after 1 t) from by
    unfold Dat.leavesExact; rw [live_k t], after1_1]
  rw [show (dat1 V c).leavesExact 2 t = owns (c : Thread nD τ) (st1_2 t) fullShare ((dat1 V c).after 2 t) from by
    unfold Dat.leavesExact; rw [live_v t], after1_2]
  by_cases he : t.val % 2 = 0
  · -- kt = 0: reset and accumulate; the output window idle
    have h1 : resetAt (grid1.coords t) := (resetAt_iff t).mpr he
    have h2 : accumAt (grid1.coords t) := (accumAt_iff t).mpr (by omega)
    have h3 : ¬emitAt (grid1.coords t) := fun h => by have := (emitAt_iff t).mp h; omega
    rw [Dat.leavesExact_idle (dat1 V c) 3 t (idle_out t h3) (noFlush_out t h3)]
    rw [outsAt1_snd_even V c t he]
    by_cases hz : t.val = 0
    · rw [PhiS_castSucc V c t, PhiS_zero V c _ _ hz, PhiA1_eq]
      iintro ⟨⟨⟨HS, HR⟩, Hg⟩, Ho, ⟨%d0, H0⟩, ⟨%d1, H1⟩, ⟨%d2, H2⟩, ⟨%d3, H3⟩⟩
      iapply (run_reset c (grid1.coords t) _ _ _ _ _ _ _ _ _ _ h1 h2 h3 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_reset c (grid1.coords t) _ _ _ _ _ _ _ _ _ _ h1 h2 h3 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexists _; iexact H3
  · have h1 : ¬resetAt (grid1.coords t) := fun h => he ((resetAt_iff t).mp h)
    have h3 : emitAt (grid1.coords t) := (emitAt_iff t).mpr (by omega)
    have hz : t.val ≠ 0 := by omega
    rw [show (dat1 V c).leavesExact 3 t = owns (c : Thread nD τ) (st1_3 t) fullShare ((dat1 V c).after 3 t) from by
      unfold Dat.leavesExact; rw [live_out t h3], after1_3]
    rw [PhiS_castSucc V c t, PhiS_pos V c _ _ hz]
    by_cases hb : t.val % 4 = 1
    · -- kt = 1 above the diagonal: emit only
      have h2 : ¬accumAt (grid1.coords t) := fun h => (accumAt_iff t).mp h hb
      rw [outsAt1_fst_one V c t hb, outsAt1_snd_one V c t hb]
      iintro ⟨⟨⟨HS, HR⟩, Hg⟩, Ho, ⟨%d0, H0⟩, ⟨%d1, H1⟩, ⟨%d2, H2⟩, ⟨%d3, H3⟩⟩
      iapply (run_emit c (grid1.coords t) _ _ _ _ _ _ _ _ _ _ h1 h2 h3 _ Set.univ _)
      isplitl [H3]; · iexists _; iexact H3
      isplitl [HS]; · iexact HS
      iintro ⟨H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexact H3
    · -- kt = 1 on the diagonal: accumulate and emit
      have hc : t.val % 4 = 3 := by omega
      have h2 : accumAt (grid1.coords t) := (accumAt_iff t).mpr hb
      rw [outsAt1_fst_three V c t hc, outsAt1_snd_three V c t hc]
      iintro ⟨⟨⟨HS, HR⟩, Hg⟩, Ho, ⟨%d0, H0⟩, ⟨%d1, H1⟩, ⟨%d2, H2⟩, ⟨%d3, H3⟩⟩
      iapply (run_accum_emit c (grid1.coords t) _ _ _ _ _ _ _ _ _ _ h1 h2 h3 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitr [Hg]
        · isplitl [HS]; · iexact HS
          iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS, HR⟩, Hg⟩
  isplitr [Hg]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Region

end Cert.KernelIdeal.AttnBody

end
-- ==== Proof.Run.lean ====
/-
  The whole program as a run of five segments — host operations, the projection kernel, host operations, the
  attention kernel, host operations — at any float instance. The buffer contents at each boundary are a fold from the
  launch memory: a stretch of host operations applies its operations; a kernel region leaves each of its arrays at
  what its write-backs leave (the library's fold of the proof data's blocks) and every other buffer as it found it.
  The run ends with every unscoped buffer at the last boundary's contents; the three argument arrays are written by
  no host operation and by no region, so they read back as launched.
-/
import proofs.«159418_j18717467476434_2_alg».proof.Proof.Gen.KernelIdeal.Launch
import proofs.«159418_j18717467476434_2_alg».proof.Proof.Gen.KernelIdeal.Skeleton
import proofs.«159418_j18717467476434_2_alg».proof.Proof.Gen.KernelIdeal.Points
import proofs.«159418_j18717467476434_2_alg».proof.Proof.Gen.KernelIdeal.Regions
import proofs.«159418_j18717467476434_2_alg».proof.Proof.QkvBody
import proofs.«159418_j18717467476434_2_alg».proof.Proof.AttnBody
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.QkvBody Cert.KernelIdeal.AttnBody

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (the projection kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention kernel's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention kernel's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents the run ends with. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The two kernel regions as segments -/

set_option backward.isDefEq.respectTransparency.types false in
/-- The projection kernel over the thread state: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered with every unscoped buffer at `W3`, left at `W4`. Its
    invariant starts as the scoped rest with the generator register and ends by giving them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm 1).1
          ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- From any memory with zero counters every weakly fair execution of the program terminates without a fault, and
    every unscoped buffer ends at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- The bias is an input array of the projection kernel: the pipeline leaves an input array as it found it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl

/-- THE FRAME: every weakly fair execution terminates, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Run

end
-- ==== Proof.RefSide.lean ====
/-
  The reference program's side of the value comparison, at the ideal instance (a float an extended real).

  The reference computes, from an input `x : [8, 1024, 768]`, a weight `W : [2304, 768]` and a bias `b : [2304]`:
  the projection `P = x · Wᵀ + b : [8, 1024, 2304]`; its three column blocks of width 768, each laid out by heads
  as `[8, 12, 1024, 64]` (queries `Q`, keys `K`, values `V`); the scores `(Q · Kᵀ) · 2⁻³`, passed through
  `max · 0` on and below the diagonal and replaced by `0` above it; their product with `V`; and that product laid
  out again as `[8, 1024, 768]`.

  This module names the four stages of that composition as pure functions of arrays, states the generated run of
  the program with its result folded into them (`ref_run`), and reads the two arithmetic stages at an index:
  the projection is a sum over the 768 input columns plus the bias (`projT_apply`), the attention stage a sum over
  the 1024 key rows of masked, clamped, scaled score times value (`attnT_apply`). The layout stages are carried
  as they stand.
-/
import proofs.«159418_j18717467476434_2_alg».proof.Proof.Gen.ReferenceIdeal.Run
import proofs.«159418_j18717467476434_2_alg».proof.Proof.Gen.ReferenceIdeal.Read
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-! ## The four stages -/

/-- The projection: the contraction of `x`'s last axis with `W`'s last axis, plus the bias along the last axis. -/
def projT (x : FVec Ideal S8x1024x768 .f32) (W : FVec Ideal S2304x768 .f32) (b : FVec Ideal S2304 .f32) :
    FVec Ideal S8x1024x2304 .f32 :=
  addf (Host.dotGeneral dot_S8x1024x768_S2304x768_S8x1024x2304_2_1_01_0_n_n none x W)
    (broadcastInDim S8x1024x2304 ![0, 1, 2] bcast_S1x1x2304_S8x1024x2304_0_1_2
      (broadcastInDim S1x1x2304 ![2] bcast_S2304_S1x1x2304_2 b))

/-- Columns `0 … 767` of the projection, by heads: `[8, 1024, 768] → [8, 1024, 12, 64] → [8, 12, 1024, 64]`. -/
def qT (P : FVec Ideal S8x1024x2304 .f32) : FVec Ideal S8x12x1024x64 .f32 :=
  transpose S8x12x1024x64 [0, 2, 1, 3]
    (shapeCast _ (extractStridedSlice S8x1024x768 ![0, 0, 0] P slices_S8x1024x2304_S8x1024x768_0_0_0)
      shapeCasts_S8x1024x768_S8x1024x12x64)
    transposes_S8x1024x12x64_S8x12x1024x64_0_2_1_3

/-- Columns `768 … 1535` of the projection, by heads. -/
def kT (P : FVec Ideal S8x1024x2304 .f32) : FVec Ideal S8x12x1024x64 .f32 :=
  transpose S8x12x1024x64 [0, 2, 1, 3]
    (shapeCast _ (extractStridedSlice S8x1024x768 ![0, 0, 768] P slices_S8x1024x2304_S8x1024x768_0_0_768)
      shapeCasts_S8x1024x768_S8x1024x12x64)
    transposes_S8x1024x12x64_S8x12x1024x64_0_2_1_3

/-- Columns `1536 … 2303` of the projection, by heads. -/
def vT (P : FVec Ideal S8x1024x2304 .f32) : FVec Ideal S8x12x1024x64 .f32 :=
  transpose S8x12x1024x64 [0, 2, 1, 3]
    (shapeCast _ (extractStridedSlice S8x1024x768 ![0, 0, 1536] P slices_S8x1024x2304_S8x1024x768_0_0_1536)
      shapeCasts_S8x1024x768_S8x1024x12x64)
    transposes_S8x1024x12x64_S8x12x1024x64_0_2_1_3

/-- The lower-triangular mask, as the program builds it: the bit of `row + 0 ≥ column` (a signed comparison of 32-bit
    words) on a `1024 × 1024` grid, selected against the all-ones and all-zeros grids and copied over batches and heads. -/
def maskT : IVec S8x12x1024x1024 1 :=
  broadcastInDim S8x12x1024x1024 ![0, 1, 2, 3] bcast_S1x1x1024x1024_S8x12x1024x1024_0_1_2_3
    (broadcastInDim S1x1x1024x1024 ![2, 3] bcast_S1024x1024_S1x1x1024x1024_2_3
      (select
        (cmpi .sge
          (addi (iotaInDim S1024x1024 32 0) (broadcastInDim S1024x1024 ![] bcast_S_S1024x1024 (constantI S_ 32 0#32)))
          (iotaInDim S1024x1024 32 1))
        (broadcastInDim S1024x1024 ![] bcast_S_S1024x1024 (constantI S_ 1 1#1))
        (broadcastInDim S1024x1024 ![] bcast_S_S1024x1024 (constantI S_ 1 0#1))))

/-- The attention weights: the scores `Q · Kᵀ` scaled by the constant `2⁻³`, clamped below at zero, kept where the
    mask is set and zero elsewhere. -/
def weightsT (Q K : FVec Ideal S8x12x1024x64 .f32) : FVec Ideal S8x12x1024x1024 .f32 :=
  select maskT
    (maximumf
      (mulf (Host.dotGeneral dot_S8x12x1024x64_S8x12x1024x64_S8x12x1024x1024_3_3_2_2_01_01 none Q K)
        (broadcastInDim S8x12x1024x1024 ![] bcast_S_S8x12x1024x1024 (constant S_ .f32 0x3E000000#32)))
      (broadcastInDim S8x12x1024x1024 ![] bcast_S_S8x12x1024x1024 (constant S_ .f32 0x00000000#32)))
    (broadcastInDim S8x12x1024x1024 ![] bcast_S_S8x12x1024x1024 (id (constant S_ .f32 0x00000000#32)))

/-- The attention stage: per batch and head, the attention weights (scaled scores, clamped below at zero, kept where
    the key's row is at most the query's and zero elsewhere) multiplied with `V`. -/
def attnT (Q K V : FVec Ideal S8x12x1024x64 .f32) : FVec Ideal S8x12x1024x64 .f32 :=
  Host.dotGeneral dot_S8x12x1024x1024_S8x12x1024x64_S8x12x1024x64_3_2_2_3_01_01 none (weightsT Q K) V

/-- The result's layout: `[8, 12, 1024, 64] → [8, 1024, 12, 64] → [8, 1024, 768]`. -/
def tailT (Y : FVec Ideal S8x12x1024x64 .f32) : FVec Ideal S8x1024x768 .f32 :=
  shapeCast _ (transpose S8x1024x12x64 [0, 2, 1, 3] Y transposes_S8x12x1024x64_S8x1024x12x64_0_2_1_3)
    shapeCasts_S8x1024x12x64_S8x1024x768

/-! ## The run, with its result folded into the stages -/

/-- On every device, from any memory with zero counters, every weakly fair execution of the reference terminates
    with its result array at the composition of the four stages on the three argument arrays, and the arguments
    unchanged: the generated run, whose result term is this composition written out. -/
theorem ref_run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v23)
          = tailT (attnT
              (qT (projT (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))))
              (kT (projT (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))))
              (vT (projT (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2)))))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  Cert.ReferenceIdeal.Value.run (F := Ideal) m ρ

/-! ## The projection at an index -/

/-- The projection at batch `p`, row `t`, output column `o`: the sum over the 768 input columns of `x[p, t, c] · W[o, c]`,
    plus `b[o]`. -/
theorem projT_apply (x : FVec Ideal S8x1024x768 .f32) (W : FVec Ideal S2304x768 .f32) (b : FVec Ideal S2304 .f32)
    (p : Fin 8) (t : Fin 1024) (o : Fin 2304) :
    projT x W b (ix3 p t o) = (∑ c : Fin 768, x (ix3 p t c) * W (ix2 o c)) + b (ix1 o) := by
  show Cert.ReferenceIdeal.Read.val_main_v3 (F := Ideal) x W b (ix3 p t o) = _
  rw [Cert.ReferenceIdeal.Read.val_main_v3_apply, Cert.ReferenceIdeal.Read.val_main_v0_apply,
    Cert.ReferenceIdeal.Read.val_main_v2_apply, Cert.ReferenceIdeal.Read.val_main_v1_apply]
  have el : ∀ k : Fin 768, Cert.ReferenceIdeal.Read.lidx_main_v0 (ix3 p t o) k = ix3 p t k := fun k =>
    funext fun a => Fin.ext (by match a with | ⟨0, _⟩ => rfl | ⟨1, _⟩ => rfl | ⟨2, _⟩ => rfl)
  have er : ∀ k : Fin 768, Cert.ReferenceIdeal.Read.ridx_main_v0 (ix3 p t o) k = ix2 o k := fun k =>
    funext fun a => Fin.ext (by match a with | ⟨0, _⟩ => rfl | ⟨1, _⟩ => rfl)
  have eb : Cert.ReferenceIdeal.Read.idx_main_v1 (Cert.ReferenceIdeal.Read.idx_main_v2 (ix3 p t o)) = ix1 o :=
    funext fun a => Fin.ext (by match a with | ⟨0, _⟩ => rfl)
  rw [eb, Ideal.addf_def]
  exact congrArg (· + b (ix1 o)) (Finset.sum_congr rfl fun k _ => by rw [el k, er k])

/-! ## The attention stage at an index -/

/-- The mask's comparison on row and column numbers below 1024: the signed comparison of the two 32-bit words is the
    comparison of the numbers, since both words are non-negative as signed integers. -/
theorem tril_bit (q j : Nat) (hq : q < 1024) (hj : j < 1024) :
    IntOp.cmpi .sge (IntOp.addi (BitVec.ofNat 32 q) 0#32) (BitVec.ofNat 32 j) = if j ≤ q then 1#1 else 0#1 := by
  have eq : (BitVec.ofNat 32 q).toInt = (q : Int) := by
    rw [BitVec.toInt_eq_toNat_cond, BitVec.toNat_ofNat]
    have : q % 2 ^ 32 = q := Nat.mod_eq_of_lt (by omega)
    rw [this]; split <;> omega
  have ej : (BitVec.ofNat 32 j).toInt = (j : Int) := by
    rw [BitVec.toInt_eq_toNat_cond, BitVec.toNat_ofNat]
    have : j % 2 ^ 32 = j := Nat.mod_eq_of_lt (by omega)
    rw [this]; split <;> omega
  show BitVec.ofBool ((BitVec.ofNat 32 j).sle (BitVec.ofNat 32 q + 0#32)) = _
  rw [BitVec.add_zero, BitVec.sle, eq, ej]
  by_cases h : j ≤ q
  · rw [if_pos h, decide_eq_true (by exact_mod_cast h)]; rfl
  · rw [if_neg h, decide_eq_false (by exact_mod_cast h)]; rfl

/-- The mask at batch `p`, head `h`, query row `q`, key row `j`: set exactly when `j ≤ q`. -/
theorem maskT_apply (p : Fin 8) (h : Fin 12) (q j : Fin 1024) :
    maskT (ix4 p h q j) = if j.val ≤ q.val then 1#1 else 0#1 := by
  show Cert.ReferenceIdeal.Read.val_main_call2_v1 (F := Ideal) (ix4 p h q j) = _
  rw [Cert.ReferenceIdeal.Read.val_main_call2_v1_apply, Cert.ReferenceIdeal.Read.val_main_v18_apply,
    Cert.ReferenceIdeal.Read.val_main_v17_apply, Cert.ReferenceIdeal.Read.val_main_call0_v4_apply,
    Cert.ReferenceIdeal.Read.val_main_call0_v2_apply, Cert.ReferenceIdeal.Read.val_main_call0_v0_apply,
    Cert.ReferenceIdeal.Read.val_main_call0_v3_apply, Cert.ReferenceIdeal.Read.val_main_call0_v1_apply,
    Cert.ReferenceIdeal.Read.val_main_call0_c_apply, Cert.ReferenceIdeal.Read.val_main_v16_apply,
    Cert.ReferenceIdeal.Read.val_main_c_apply, Cert.ReferenceIdeal.Read.val_main_call0_v5_apply,
    Cert.ReferenceIdeal.Read.val_main_call0_c_0_apply]
  show Scalar.select (IntOp.cmpi .sge (IntOp.addi (BitVec.ofNat 32 q.val) 0#32) (BitVec.ofNat 32 j.val)) 1#1 0#1 = _
  rw [tril_bit q.val j.val q.isLt j.isLt]
  by_cases hjq : j.val ≤ q.val
  · rw [if_pos hjq]; rfl
  · rw [if_neg hjq]; rfl

/-- The scores' contraction at an index: over the 64 columns of a head, the query row times the key row. (The
    contraction's one axis is re-indexed by its coordinate; the operand indices are read off the dimension numbers.) -/
theorem scores_apply (Q K : FVec Ideal S8x12x1024x64 .f32) (p : Fin 8) (h : Fin 12) (q j : Fin 1024) :
    Host.dotGeneral dot_S8x12x1024x64_S8x12x1024x64_S8x12x1024x1024_3_3_2_2_01_01 none Q K (ix4 p h q j)
      = ∑ e : Fin 64, Q (ix4 p h q e) * K (ix4 p h j e) := by
  simp only [Host.dotGeneral]
  rw [Ideal.dotGeneral_apply,
    ← Equiv.sum_comp (ValueIdx.contrEquiv1 dot_S8x12x1024x64_S8x12x1024x64_S8x12x1024x1024_3_3_2_2_01_01 64 rfl rfl).symm]
  refine Finset.sum_congr rfl fun e _ => ?_
  have he := ValueIdx.contrEquiv1_symm_val dot_S8x12x1024x64_S8x12x1024x64_S8x12x1024x1024_3_3_2_2_01_01 64 rfl rfl e
  have el : dot_S8x12x1024x64_S8x12x1024x64_S8x12x1024x1024_3_3_2_2_01_01.lhsIdx (ix4 p h q j)
      ((ValueIdx.contrEquiv1 dot_S8x12x1024x64_S8x12x1024x64_S8x12x1024x1024_3_3_2_2_01_01 64 rfl rfl).symm e)
      = ix4 p h q e := funext fun a => Fin.ext (by
    match a with
    | ⟨0, _⟩ => exact Cert.ReferenceIdeal.Read.lhs_main_v13_0 _ _
    | ⟨1, _⟩ => exact Cert.ReferenceIdeal.Read.lhs_main_v13_1 _ _
    | ⟨2, _⟩ => exact Cert.ReferenceIdeal.Read.lhs_main_v13_2 _ _
    | ⟨3, _⟩ => exact (Cert.ReferenceIdeal.Read.lhs_main_v13_3 _ _).trans he)
  have er : dot_S8x12x1024x64_S8x12x1024x64_S8x12x1024x1024_3_3_2_2_01_01.rhsIdx (ix4 p h q j)
      ((ValueIdx.contrEquiv1 dot_S8x12x1024x64_S8x12x1024x64_S8x12x1024x1024_3_3_2_2_01_01 64 rfl rfl).symm e)
      = ix4 p h j e := funext fun a => Fin.ext (by
    match a with
    | ⟨0, _⟩ => exact Cert.ReferenceIdeal.Read.rhs_main_v13_0 _ _
    | ⟨1, _⟩ => exact Cert.ReferenceIdeal.Read.rhs_main_v13_1 _ _
    | ⟨2, _⟩ => exact Cert.ReferenceIdeal.Read.rhs_main_v13_2 _ _
    | ⟨3, _⟩ => exact (Cert.ReferenceIdeal.Read.rhs_main_v13_3 _ _).trans he)
  rw [el, er]

/-- The second contraction at an index: over the 1024 key rows, the weight of the query row on the key row times
    the value row's entry. -/
theorem out_apply (S : FVec Ideal S8x12x1024x1024 .f32) (V : FVec Ideal S8x12x1024x64 .f32)
    (p : Fin 8) (h : Fin 12) (q : Fin 1024) (d : Fin 64) :
    Host.dotGeneral dot_S8x12x1024x1024_S8x12x1024x64_S8x12x1024x64_3_2_2_3_01_01 none S V (ix4 p h q d)
      = ∑ j : Fin 1024, S (ix4 p h q j) * V (ix4 p h j d) := by
  simp only [Host.dotGeneral]
  rw [Ideal.dotGeneral_apply,
    ← Equiv.sum_comp (ValueIdx.contrEquiv1 dot_S8x12x1024x1024_S8x12x1024x64_S8x12x1024x64_3_2_2_3_01_01 1024 rfl rfl).symm]
  refine Finset.sum_congr rfl fun j _ => ?_
  have hj := ValueIdx.contrEquiv1_symm_val dot_S8x12x1024x1024_S8x12x1024x64_S8x12x1024x64_3_2_2_3_01_01 1024 rfl rfl j
  have el : dot_S8x12x1024x1024_S8x12x1024x64_S8x12x1024x64_3_2_2_3_01_01.lhsIdx (ix4 p h q d)
      ((ValueIdx.contrEquiv1 dot_S8x12x1024x1024_S8x12x1024x64_S8x12x1024x64_3_2_2_3_01_01 1024 rfl rfl).symm j)
      = ix4 p h q j := funext fun a => Fin.ext (by
    match a with
    | ⟨0, _⟩ => exact Cert.ReferenceIdeal.Read.lhs_main_v21_0 _ _
    | ⟨1, _⟩ => exact Cert.ReferenceIdeal.Read.lhs_main_v21_1 _ _
    | ⟨2, _⟩ => exact Cert.ReferenceIdeal.Read.lhs_main_v21_2 _ _
    | ⟨3, _⟩ => exact (Cert.ReferenceIdeal.Read.lhs_main_v21_3 _ _).trans hj)
  have er : dot_S8x12x1024x1024_S8x12x1024x64_S8x12x1024x64_3_2_2_3_01_01.rhsIdx (ix4 p h q d)
      ((ValueIdx.contrEquiv1 dot_S8x12x1024x1024_S8x12x1024x64_S8x12x1024x64_3_2_2_3_01_01 1024 rfl rfl).symm j)
      = ix4 p h j d := funext fun a => Fin.ext (by
    match a with
    | ⟨0, _⟩ => exact Cert.ReferenceIdeal.Read.rhs_main_v21_0 _ _
    | ⟨1, _⟩ => exact Cert.ReferenceIdeal.Read.rhs_main_v21_1 _ _
    | ⟨2, _⟩ => exact (Cert.ReferenceIdeal.Read.rhs_main_v21_2 _ _).trans hj
    | ⟨3, _⟩ => exact Cert.ReferenceIdeal.Read.rhs_main_v21_3 _ _)
  rw [el, er]

/-- A scalar constant copied over the score grid reads the extended real its word encodes, everywhere. -/
theorem splat_apply (w : BitVec 32) (i : S8x12x1024x1024.Idx) :
    broadcastInDim S8x12x1024x1024 ![] bcast_S_S8x12x1024x1024 (constant (F := Ideal) S_ .f32 w) i = Ideal.ofBits .f32 w :=
  broadcastInDim_apply _ bcast_S_S8x12x1024x1024 (constant (F := Ideal) S_ .f32 w) i (fun a => a.elim0) (fun a => a.elim0)

/-- The attention weights at batch `p`, head `h`, query row `q`, key row `j`: on and below the diagonal the scaled score
    clamped below at zero, above it zero. -/
theorem weightsT_apply (Q K : FVec Ideal S8x12x1024x64 .f32) (p : Fin 8) (h : Fin 12) (q j : Fin 1024) :
    weightsT Q K (ix4 p h q j)
      = if j.val ≤ q.val then max ((∑ e : Fin 64, Q (ix4 p h q e) * K (ix4 p h j e)) * Ideal.ofBits .f32 0x3E000000#32) 0 else 0 := by
  have hz : broadcastInDim S8x12x1024x1024 ![] bcast_S_S8x12x1024x1024 (id (constant (F := Ideal) S_ .f32 0x00000000#32)) (ix4 p h q j)
      = 0 := (splat_apply 0x00000000#32 (ix4 p h q j)).trans Ideal.ofBits_zero_f32
  show Scalar.select (maskT (ix4 p h q j))
      (max (Host.dotGeneral dot_S8x12x1024x64_S8x12x1024x64_S8x12x1024x1024_3_3_2_2_01_01 none Q K (ix4 p h q j)
          * broadcastInDim S8x12x1024x1024 ![] bcast_S_S8x12x1024x1024 (constant (F := Ideal) S_ .f32 0x3E000000#32) (ix4 p h q j))
        (broadcastInDim S8x12x1024x1024 ![] bcast_S_S8x12x1024x1024 (constant (F := Ideal) S_ .f32 0x00000000#32) (ix4 p h q j)))
      (broadcastInDim S8x12x1024x1024 ![] bcast_S_S8x12x1024x1024 (id (constant (F := Ideal) S_ .f32 0x00000000#32)) (ix4 p h q j)) = _
  rw [maskT_apply, hz, scores_apply, splat_apply, splat_apply, Ideal.ofBits_zero_f32]
  by_cases hjq : j.val ≤ q.val
  · rw [if_pos hjq, if_pos hjq]; rfl
  · rw [if_neg hjq, if_neg hjq]; rfl

/-- The attention stage at batch `p`, head `h`, query row `q`, column `d`: the sum over the key rows `j` of the weight —
    for `j ≤ q` the score `∑ₑ Q[p, h, q, e] · K[p, h, j, e]` times the constant `2⁻³`, clamped below at zero; for `j > q`
    zero — times `V[p, h, j, d]`. -/
theorem attnT_apply (Q K V : FVec Ideal S8x12x1024x64 .f32) (p : Fin 8) (h : Fin 12) (q : Fin 1024) (d : Fin 64) :
    attnT Q K V (ix4 p h q d)
      = ∑ j : Fin 1024, (if j.val ≤ q.val then max ((∑ e : Fin 64, Q (ix4 p h q e) * K (ix4 p h j e)) * Ideal.ofBits .f32 0x3E000000#32) 0 else 0)
          * V (ix4 p h j d) := by
  unfold attnT
  rw [out_apply]
  exact Finset.sum_congr rfl fun j _ => by rw [weightsT_apply]

end Cert.RefSide

end
-- ==== Proof.HostValue.lean ====
/-
  What the host operations between the kernels compute, as named layout functions of the previous boundary's contents
  (at any float instance): before the projection kernel the input is flattened to rows and the weight rounded; between
  the kernels the projected rows are cut in three, each third re-laid as 96 heads of 1024 rows of 64; after the
  attention kernel the heads are laid back as rows.
-/
import proofs.«159418_j18717467476434_2_alg».proof.Proof.Gen.KernelIdeal.Launch
import proofs.«159418_j18717467476434_2_alg».proof.Proof.Gen.KernelIdeal.Skeleton
import proofs.«159418_j18717467476434_2_alg».proof.Proof.Gen.KernelIdeal.Points
import proofs.«159418_j18717467476434_2_alg».proof.Proof.Run
import Idealize.ShloMosaic.Lib.StableHlo.Run
import Idealize.ShloMosaic.Lib.Pipeline.FrameBody
import Idealize.ShloMosaic.Lib.Ring
import Idealize.ShloMosaic.Lib.Tactic

set_option maxRecDepth 16384

noncomputable section

namespace Cert.KernelIdeal.HostValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Run Cert.KernelIdeal.QkvBody Cert.KernelIdeal.AttnBody

variable (m : (ℓ : Loc nD τ sig) → Buf (Elt F) ℓ) (ρ : Dev nD → PrngReg)

/-- The projected rows [8192, 2304] as [8, 1024, 2304]. -/
def rows3 (A : FVec F S8192x2304 .bf16) : FVec F S8x1024x2304 .bf16 :=
  shapeCast S8x1024x2304 A shapeCasts_S8192x2304_S8x1024x2304
/-- A third of the projected rows as heads [8, 12, 1024, 64]. -/
def heads (S : FVec F S8x1024x768 .bf16) : FVec F S8x12x1024x64 .bf16 :=
  transpose S8x12x1024x64 [0, 2, 1, 3] (shapeCast S8x1024x12x64 S shapeCasts_S8x1024x768_S8x1024x12x64) transposes_S8x1024x12x64_S8x12x1024x64_0_2_1_3
/-- The heads with batch and head fused: [96, 1024, 64]. -/
def fuse (H : FVec F S8x12x1024x64 .bf16) : FVec F S96x1024x64 .bf16 :=
  shapeCast S96x1024x64 H shapeCasts_S8x12x1024x64_S96x1024x64
def qPart (P : FVec F S8x1024x2304 .bf16) : FVec F S8x1024x768 .bf16 := extractStridedSlice S8x1024x768 ![0, 0, 0] P slices_S8x1024x2304_S8x1024x768_0_0_0
def kPart (P : FVec F S8x1024x2304 .bf16) : FVec F S8x1024x768 .bf16 := extractStridedSlice S8x1024x768 ![0, 0, 768] P slices_S8x1024x2304_S8x1024x768_0_0_768
def vPart (P : FVec F S8x1024x2304 .bf16) : FVec F S8x1024x768 .bf16 := extractStridedSlice S8x1024x768 ![0, 0, 1536] P slices_S8x1024x2304_S8x1024x768_0_0_1536
/-- The attention kernel's result [96, 1024, 64] laid back as rows [8, 1024, 768]. -/
def unfuse (Y : FVec F S96x1024x64 .f32) : FVec F S8x12x1024x64 .f32 :=
  shapeCast S8x12x1024x64 Y shapeCasts_S96x1024x64_S8x12x1024x64
def backToRows (Y : FVec F S8x12x1024x64 .f32) : FVec F S8x1024x768 .f32 :=
  shapeCast S8x1024x768 (transpose S8x1024x12x64 [0, 2, 1, 3] Y transposes_S8x12x1024x64_S8x1024x12x64_0_2_1_3) shapeCasts_S8x1024x12x64_S8x1024x768

/-! ## Before the projection kernel -/

theorem V1_rows (c : Dev nD) : (V1 m ρ c main_v1 : FVec F S8192x768 .f32)
    = shapeCast S8192x768 (m ((c : Thread nD τ).loc main_arg0) : FVec F S8x1024x768 .f32) shapeCasts_S8x1024x768_S8192x768 := by
  show StableHlo.after hostOps0 (W0 m ρ c) (Proc.devRef .tc main_v1) = _
  after_results <;> rfl

theorem V1_weight (c : Dev nD) : (V1 m ρ c main_v0 : FVec F S2304x768 .bf16)
    = truncf .bf16 (m ((c : Thread nD τ).loc main_arg1) : FVec F S2304x768 .f32) bitsLt_bf16_f32 := by
  show StableHlo.after hostOps0 (W0 m ρ c) (Proc.devRef .tc main_v0) = _
  after_results <;> rfl

theorem V1_bias (c : Dev nD) : (V1 m ρ c main_arg2 : FVec F S2304 .f32) = m ((c : Thread nD τ).loc main_arg2) := by
  show StableHlo.after hostOps0 (W0 m ρ c) (Proc.devRef .tc main_arg2) = _
  after_results <;> rfl

/-! ## Between the kernels -/

theorem V3_q (c : Dev nD) : (V3 m ρ c main_v9 : FVec F S96x1024x64 .bf16)
    = fuse (heads (qPart (rows3 (W2 m ρ c (Proc.devRef .tc main_v2))))) := by
  show StableHlo.after hostOps1 (W2 m ρ c) (Proc.devRef .tc main_v9) = _
  after_results <;> rfl
theorem V3_k (c : Dev nD) : (V3 m ρ c main_v12 : FVec F S96x1024x64 .bf16)
    = fuse (heads (kPart (rows3 (W2 m ρ c (Proc.devRef .tc main_v2))))) := by
  show StableHlo.after hostOps1 (W2 m ρ c) (Proc.devRef .tc main_v12) = _
  after_results <;> rfl
theorem V3_v (c : Dev nD) : (V3 m ρ c main_v15 : FVec F S96x1024x64 .bf16)
    = fuse (heads (vPart (rows3 (W2 m ρ c (Proc.devRef .tc main_v2))))) := by
  show StableHlo.after hostOps1 (W2 m ρ c) (Proc.devRef .tc main_v15) = _
  after_results <;> rfl

/-! ## After the attention kernel -/

theorem W5_result (c : Dev nD) : (W5 m ρ c (Proc.devRef .tc main_v19) : FVec F S8x1024x768 .f32)
    = backToRows (unfuse (W4 m ρ c (Proc.devRef .tc main_v16))) := by
  show StableHlo.after hostOps2 (W4 m ρ c) (Proc.devRef .tc main_v19) = _
  after_results <;> rfl

end Cert.KernelIdeal.HostValue

end
-- ==== Proof.Spec.lean ====
/-
  The two kernels' results as whole-array functions on the extended reals.
  The projection kernel leaves, at row r and column o, the inner product of row r of the flattened input with row o of
  the weight, plus bias o. The attention kernel leaves, for fused head g, query row q and feature d, the sum over the
  key rows j ≤ q of the rectified scaled score of (q, j) times value (j, d); key rows beyond q contribute zero.
-/
import proofs.«159418_j18717467476434_2_alg».proof.KernelIdeal
import Idealize.ShloMosaic.Lib.ValueIdx
import Idealize.ShloMosaic.PureOps.Ideal

noncomputable section

namespace Cert.KernelIdeal.Spec

open Cert.KernelIdeal Idealize.ShloMosaic Idealize.ShloMosaic.ValueIdx
open scoped BigOperators

/-- Entry (r, o) of the projected rows. -/
def projAt (X : FVec Ideal S8192x768 .f32) (Wb : FVec Ideal S2304x768 .bf16) (B : FVec Ideal S2304 .f32) (r : Fin 8192) (o : Fin 2304) : EReal :=
  (∑ k : Fin 768, X (ix2 r k) * Wb (ix2 o k)) + B (ix1 o)

/-- The projected rows. -/
def projRows (X : FVec Ideal S8192x768 .f32) (Wb : FVec Ideal S2304x768 .bf16) (B : FVec Ideal S2304 .f32) : FVec Ideal S8192x2304 .bf16 :=
  fun i => projAt X Wb B (i 0) (i 1)

theorem projRows_apply (X : FVec Ideal S8192x768 .f32) (Wb : FVec Ideal S2304x768 .bf16) (B : FVec Ideal S2304 .f32) (r : Fin 8192) (o : Fin 2304) :
    projRows X Wb B (ix2 r o) = (∑ k : Fin 768, X (ix2 r k) * Wb (ix2 o k)) + B (ix1 o) := rfl

/-- Entry (g, q, d) of the attention result. -/
def attnAt (Q K V : FVec Ideal S96x1024x64 .bf16) (g : Fin 96) (q : Fin 1024) (d : Fin 64) : EReal :=
  ∑ j : Fin 1024, (if j.val ≤ q.val then max ((∑ e : Fin 64, Q (ix3 g q e) * K (ix3 g j e)) * Ideal.ofBits .f32 0x3E000000#32) 0 else 0) * V (ix3 g j d)

/-- The attention result. -/
def attnRows (Q K V : FVec Ideal S96x1024x64 .bf16) : FVec Ideal S96x1024x64 .f32 :=
  fun i => attnAt Q K V (i 0) (i 1) (i 2)

theorem attnRows_apply (Q K V : FVec Ideal S96x1024x64 .bf16) (g : Fin 96) (q : Fin 1024) (d : Fin 64) :
    attnRows Q K V (ix3 g q d) = attnAt Q K V g q d := rfl

end Cert.KernelIdeal.Spec

end
-- ==== Proof.Bridge.lean ====
/-
  The kernel program's result and the reference's are one function of the arguments, on the extended reals.
  Both programs cut the projected rows in three and lay each third out as heads with the same layout operations, and
  lay the attention result back as rows with the same operations; a change of float format is the identity here. So it
  is enough that (1) the projection kernel's rows, read as [8, 1024, 2304], are the reference's projection, and (2) the
  attention kernel's result on the fused heads [96, 1024, 64], read as [8, 12, 1024, 64], is the reference's attention:
  fusing batch p and head h to g = 12·p + h only renames the row-major position.
-/
import proofs.«159418_j18717467476434_2_alg».proof.Proof.RefSide
import proofs.«159418_j18717467476434_2_alg».proof.Proof.HostValue
import proofs.«159418_j18717467476434_2_alg».proof.Proof.Spec
import Idealize.ShloMosaic.Lib.Pipeline.Value
import Idealize.ShloMosaic.Lib.ValueIdx

noncomputable section

namespace Cert.KernelIdeal.Bridge

open Cert.KernelIdeal Cert.KernelIdeal.Gen Cert.KernelIdeal.HostValue Cert.KernelIdeal.Spec Cert.KernelIdeal.Run
open Cert.KernelIdeal.QkvBody Cert.KernelIdeal.AttnBody
open Cert.RefSide Idealize.ShloMosaic Idealize.ShloMosaic.TcCoe Idealize.ShloMosaic.ValueIdx Idealize.SL.Sem
open scoped BigOperators

/-! ## The shared layout operations -/

theorem heads_q (P : FVec Ideal S8x1024x2304 .bf16) : heads (qPart P) = qT P := rfl
theorem heads_k (P : FVec Ideal S8x1024x2304 .bf16) : heads (kPart P) = kT P := rfl
theorem heads_v (P : FVec Ideal S8x1024x2304 .bf16) : heads (vPart P) = vT P := rfl
theorem backToRows_eq (Y : FVec Ideal S8x12x1024x64 .f32) : backToRows Y = tailT Y := rfl

/-! ## Fusing batch and head -/

/-- Fused head g = 12·p + h of the fused array is head (p, h) of the unfused one. -/
theorem fuse_apply (H : FVec Ideal S8x12x1024x64 .bf16) (p : Fin 8) (h : Fin 12) (q : Fin 1024) (e : Fin 64) (g : Fin 96)
    (hg : g.val = p.val * 12 + h.val) : fuse H (ix3 g q e) = H (ix4 p h q e) := by
  unfold fuse
  exact shapeCast_apply H _ (ix3 g q e) (ix4 p h q e) (by
    rw [Shape.rowMajor_val_four, Shape.rowMajor_val_three]
    show ((p.val * 12 + h.val) * 1024 + q.val) * 64 + e.val = (g.val * 1024 + q.val) * 64 + e.val
    rw [hg])

theorem unfuse_apply (Y : FVec Ideal S96x1024x64 .f32) (p : Fin 8) (h : Fin 12) (q : Fin 1024) (d : Fin 64) (g : Fin 96)
    (hg : g.val = p.val * 12 + h.val) : unfuse Y (ix4 p h q d) = Y (ix3 g q d) := by
  unfold unfuse
  exact shapeCast_apply Y _ (ix4 p h q d) (ix3 g q d) (by
    rw [Shape.rowMajor_val_four, Shape.rowMajor_val_three]
    show (g.val * 1024 + q.val) * 64 + d.val = ((p.val * 12 + h.val) * 1024 + q.val) * 64 + d.val
    rw [hg])

/-- The attention result on the fused heads, unfused, is the reference's attention of the unfused heads. -/
theorem unfuse_attnRows (Q K V : FVec Ideal S8x12x1024x64 .bf16) :
    unfuse (attnRows (fuse Q) (fuse K) (fuse V)) = attnT Q K V := by
  funext i
  obtain ⟨p, h, q, d, rfl⟩ : ∃ (p : Fin 8) (h : Fin 12) (q : Fin 1024) (d : Fin 64), i = ix4 p h q d :=
    ⟨i 0, i 1, i 2, i 3, eq_ix4 i⟩
  have hg : p.val * 12 + h.val < 96 := by have := p.isLt; have := h.isLt; omega
  refine (unfuse_apply _ p h q d ⟨p.val * 12 + h.val, hg⟩ rfl).trans ?_
  refine Eq.trans ?_ (attnT_apply Q K V p h q d).symm
  rw [attnRows_apply]
  unfold attnAt
  have hQ : ∀ e : Fin 64, fuse Q (ix3 (⟨p.val * 12 + h.val, hg⟩ : Fin 96) q e) = Q (ix4 p h q e) :=
    fun e => fuse_apply Q p h q e _ rfl
  have hK : ∀ (j : Fin 1024) (e : Fin 64), fuse K (ix3 (⟨p.val * 12 + h.val, hg⟩ : Fin 96) j e) = K (ix4 p h j e) :=
    fun j e => fuse_apply K p h j e _ rfl
  have hV : ∀ j : Fin 1024, fuse V (ix3 (⟨p.val * 12 + h.val, hg⟩ : Fin 96) j d) = V (ix4 p h j d) :=
    fun j => fuse_apply V p h j d _ rfl
  simp only [hQ, hK, hV]

/-! ## The projected rows -/

/-- The projection kernel's rows [8192, 2304] of the flattened input, read as [8, 1024, 2304], are the reference's
    projection: row 1024·p + t of the flattened input is row (p, t). -/
theorem rows3_projRows (x : FVec Ideal S8x1024x768 .f32) (W : FVec Ideal S2304x768 .f32) (b : FVec Ideal S2304 .f32) :
    rows3 (projRows (shapeCast S8192x768 x shapeCasts_S8x1024x768_S8192x768) (truncf .bf16 W bitsLt_bf16_f32) b) = projT x W b := by
  funext i
  obtain ⟨p, t, o, rfl⟩ : ∃ (p : Fin 8) (t : Fin 1024) (o : Fin 2304), i = ix3 p t o := ⟨i 0, i 1, i 2, eq_ix3 i⟩
  have hr : p.val * 1024 + t.val < 8192 := by have := p.isLt; have := t.isLt; omega
  refine Eq.trans ?_ (projT_apply x W b p t o).symm
  unfold rows3
  refine (shapeCast_apply _ _ (ix3 p t o) (ix2 (⟨p.val * 1024 + t.val, hr⟩ : Fin 8192) o) (by
    rw [Shape.rowMajor_val_two, Shape.rowMajor_val_three]
    show (p.val * 1024 + t.val) * 2304 + o.val = (p.val * 1024 + t.val) * 2304 + o.val
    rfl)).trans ?_
  rw [projRows_apply]
  congr 1
  refine Finset.sum_congr rfl fun k _ => ?_
  congr 1
  exact shapeCast_apply x _ (ix2 (⟨p.val * 1024 + t.val, hr⟩ : Fin 8192) k) (ix3 p t k) (by
    rw [Shape.rowMajor_val_three, Shape.rowMajor_val_two]
    show (p.val * 1024 + t.val) * 768 + k.val = (p.val * 1024 + t.val) * 768 + k.val
    rfl)

/-! ## The program's result -/

variable (m : (ℓ : Loc nD τ sig) → Buf (Elt Ideal) ℓ) (ρ : Dev nD → PrngReg)

/-- The contents the run ends with at the result buffer are the reference's stages of the launch contents of the three
    arguments, given what the two kernels' write-backs leave in their output arrays. -/
theorem result_eq (c : Dev nD)
    (h0 : (dat0 (V1 m ρ) c).arrAt 3 cfg0.N = projRows (V1 m ρ c main_v1) (V1 m ρ c main_v0) (V1 m ρ c main_arg2))
    (h1 : (dat1 (V3 m ρ) c).arrAt 3 cfg1.N = attnRows (V3 m ρ c main_v9) (V3 m ρ c main_v12) (V3 m ρ c main_v15)) :
    (W5 m ρ c (Proc.devRef .tc main_v19) : FVec Ideal S8x1024x768 .f32)
      = tailT (attnT
          (qT (projT (m ((c : Thread nD τ).loc main_arg0)) (m ((c : Thread nD τ).loc main_arg1)) (m ((c : Thread nD τ).loc main_arg2))))
          (kT (projT (m ((c : Thread nD τ).loc main_arg0)) (m ((c : Thread nD τ).loc main_arg1)) (m ((c : Thread nD τ).loc main_arg2))))
          (vT (projT (m ((c : Thread nD τ).loc main_arg0)) (m ((c : Thread nD τ).loc main_arg1)) (m ((c : Thread nD τ).loc main_arg2))))) := by
  have e2 : (W2 m ρ c (Proc.devRef .tc main_v2) : FVec Ideal S8192x2304 .bf16)
      = projRows (shapeCast S8192x768 (m ((c : Thread nD τ).loc main_arg0) : FVec Ideal S8x1024x768 .f32) shapeCasts_S8x1024x768_S8192x768)
          (truncf .bf16 (m ((c : Thread nD τ).loc main_arg1) : FVec Ideal S2304x768 .f32) bitsLt_bf16_f32) (m ((c : Thread nD τ).loc main_arg2)) := by
    refine (W2_arr m ρ c 3).trans (h0.trans ?_)
    rw [V1_rows, V1_weight, V1_bias]
  have eP : rows3 (F := Ideal) (W2 m ρ c (Proc.devRef .tc main_v2) : FVec Ideal S8192x2304 .bf16)
      = projT (m ((c : Thread nD τ).loc main_arg0)) (m ((c : Thread nD τ).loc main_arg1)) (m ((c : Thread nD τ).loc main_arg2)) := by
    rw [e2]; exact rows3_projRows _ _ _
  have e4 : (W4 m ρ c (Proc.devRef .tc main_v16) : FVec Ideal S96x1024x64 .f32)
      = attnRows (V3 m ρ c main_v9) (V3 m ρ c main_v12) (V3 m ρ c main_v15) := (W4_arr m ρ c 3).trans h1
  rw [W5_result, e4, V3_q, V3_k, V3_v, eP, heads_q, heads_k, heads_v, unfuse_attnRows, backToRows_eq]

end Cert.KernelIdeal.Bridge

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.Payload.lean ====
/-
  The two kernels' arithmetic read at one entry, at the exact (extended-real) instance.

  * `qkv_apply`: the first kernel's stored block is, at (r, o), the sum over c of the row block at (r, c) times the
    weight at (o, c), plus the bias at o.
  * `zero_apply`: the block the second kernel starts its running total from is zero everywhere.
  * `acc_apply`: the block the second kernel stores at a grid point is, at (h, q, d), the running total there plus the sum
    over j of the masked, rectified score (h, q, j) times the value block at (h, j, d); the score is the sum over e of the
    scaled query (h, q, e) times the key (h, j, e), and the mask keeps the columns whose global number is at most the
    row's global number.
-/
import proofs.«159418_j18717467476434_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«159418_j18717467476434_2_alg».proof.Proof.LibDenseRows

noncomputable section

open scoped BigOperators

namespace Cert.Payload

open Cert.KernelIdeal Cert.KernelIdeal.Gen Idealize.ShloMosaic Idealize.ShloMosaic.ValueIdx

/-! ## The first kernel's block at one entry -/

/-- The first kernel's block: the matrix product of the row block with the weight's transpose plus the bias row. -/
theorem qkv_apply (v0 : Vec Ideal S512x768 .f32) (v3 : Vec Ideal S2304x768 .bf16) (v6 : Vec Ideal S2304 .f32) (r : Fin 512) (o : Fin 2304) :
    k0_pay1 (F := Ideal) v0 v3 v6 (ix2 r o) = (∑ c : Fin 768, v0 (ix2 r c) * v3 (ix2 o c)) + v6 (ix1 o) := by
  unfold k0_pay1
  simp only [shapeCast_self]
  refine congrArg₂ (fun a b : EReal => a + b) ?_ ?_
  · exact Cert.DenseRows.matmulT_zero_apply none _ v3 r o
  · exact (broadcastTo_1b_ab_apply _ _ r o).trans (shapeCast_a_1a_apply v6 _ 0 o)

/-- The block the second kernel's running total starts from: zero everywhere. -/
theorem zero_apply (y : S4x512x64.Idx) : k1_pay1 (F := Ideal) y = 0 := by
  unfold k1_pay1
  simp only [shapeCast_self]
  exact Ideal.ofBits_zero_f32

/-! ## The score product: batched over the heads, both operands contracted on their last axis -/

/-- The left operand's head is the result's head. -/
theorem score_lhs_0 (i : S4x512x512.Idx) (k : dot_S4x512x64_S4x512x64_S4x512x512_2_2_1_1_0_0.contr.Idx) :
    (dot_S4x512x64_S4x512x64_S4x512x512_2_2_1_1_0_0.lhsIdx i k 0).val = (i 0).val := by
  unfold DotDims.lhsIdx
  rw [dif_pos (show (0 : Fin S4x512x64.rank) ∈ dot_S4x512x64_S4x512x64_S4x512x512_2_2_1_1_0_0.lhsBatch by decide)]
  rfl

/-- The left operand's row is the result's row. -/
theorem score_lhs_1 (i : S4x512x512.Idx) (k : dot_S4x512x64_S4x512x64_S4x512x512_2_2_1_1_0_0.contr.Idx) :
    (dot_S4x512x64_S4x512x64_S4x512x512_2_2_1_1_0_0.lhsIdx i k 1).val = (i 1).val := by
  unfold DotDims.lhsIdx
  rw [dif_neg (show ¬(1 : Fin S4x512x64.rank) ∈ dot_S4x512x64_S4x512x64_S4x512x512_2_2_1_1_0_0.lhsBatch by decide),
    dif_pos (show (1 : Fin S4x512x64.rank) ∈ dot_S4x512x64_S4x512x64_S4x512x512_2_2_1_1_0_0.lhsNonContracting by decide)]
  rfl

/-- The left operand's column is the contraction position. -/
theorem score_lhs_2 (i : S4x512x512.Idx) (k : dot_S4x512x64_S4x512x64_S4x512x512_2_2_1_1_0_0.contr.Idx) :
    (dot_S4x512x64_S4x512x64_S4x512x512_2_2_1_1_0_0.lhsIdx i k 2).val = (k ⟨0, by decide⟩).val :=
  dot_S4x512x64_S4x512x64_S4x512x512_2_2_1_1_0_0.lhsIdx_val_of_single rfl i k

/-- The right operand's head is the result's head. -/
theorem score_rhs_0 (i : S4x512x512.Idx) (k : dot_S4x512x64_S4x512x64_S4x512x512_2_2_1_1_0_0.contr.Idx) :
    (dot_S4x512x64_S4x512x64_S4x512x512_2_2_1_1_0_0.rhsIdx i k 0).val = (i 0).val := by
  unfold DotDims.rhsIdx
  rw [dif_pos (show (0 : Fin S4x512x64.rank) ∈ dot_S4x512x64_S4x512x64_S4x512x512_2_2_1_1_0_0.rhsBatch by decide)]
  rfl

/-- The right operand's row is the result's column. -/
theorem score_rhs_1 (i : S4x512x512.Idx) (k : dot_S4x512x64_S4x512x64_S4x512x512_2_2_1_1_0_0.contr.Idx) :
    (dot_S4x512x64_S4x512x64_S4x512x512_2_2_1_1_0_0.rhsIdx i k 1).val = (i 2).val := by
  unfold DotDims.rhsIdx
  rw [dif_neg (show ¬(1 : Fin S4x512x64.rank) ∈ dot_S4x512x64_S4x512x64_S4x512x512_2_2_1_1_0_0.rhsBatch by decide),
    dif_pos (show (1 : Fin S4x512x64.rank) ∈ dot_S4x512x64_S4x512x64_S4x512x512_2_2_1_1_0_0.rhsNonContracting by decide)]
  rfl

/-- The right operand's column is the contraction position. -/
theorem score_rhs_2 (i : S4x512x512.Idx) (k : dot_S4x512x64_S4x512x64_S4x512x512_2_2_1_1_0_0.contr.Idx) :
    (dot_S4x512x64_S4x512x64_S4x512x512_2_2_1_1_0_0.rhsIdx i k 2).val = (k ⟨0, by decide⟩).val :=
  dot_S4x512x64_S4x512x64_S4x512x512_2_2_1_1_0_0.rhsIdx_val_of_single rfl i k

/-- The score block at (h, q, j): the sum over e of the left operand at (h, q, e) times the right operand at (h, j, e).
    The sum is the extended reals' commutative one: no order of summation is left in it. -/
theorem score_apply (a b : FVec Ideal S4x512x64 .bf16) (h : Fin 4) (q j : Fin 512) :
    FloatOps.matmul dot_S4x512x64_S4x512x64_S4x512x512_2_2_1_1_0_0 none a b (constant S4x512x512 .f32 0x00000000#32) (ix3 h q j)
      = ∑ e : Fin 64, a (ix3 h q e) * b (ix3 h j e) := by
  rw [Ideal.matmul_constant_zero_apply, ← Equiv.sum_comp (contrEquiv1 dot_S4x512x64_S4x512x64_S4x512x512_2_2_1_1_0_0 64 rfl rfl).symm]
  refine Finset.sum_congr rfl fun k _ => ?_
  have hk := contrEquiv1_symm_val dot_S4x512x64_S4x512x64_S4x512x512_2_2_1_1_0_0 64 rfl rfl k
  have el : dot_S4x512x64_S4x512x64_S4x512x512_2_2_1_1_0_0.lhsIdx (ix3 h q j) ((contrEquiv1 dot_S4x512x64_S4x512x64_S4x512x512_2_2_1_1_0_0 64 rfl rfl).symm k) = ix3 h q k :=
    funext fun c => Fin.ext (by
      match c with
      | ⟨0, _⟩ => exact score_lhs_0 _ _
      | ⟨1, _⟩ => exact score_lhs_1 _ _
      | ⟨2, _⟩ => exact (score_lhs_2 _ _).trans hk)
  have er : dot_S4x512x64_S4x512x64_S4x512x512_2_2_1_1_0_0.rhsIdx (ix3 h q j) ((contrEquiv1 dot_S4x512x64_S4x512x64_S4x512x512_2_2_1_1_0_0 64 rfl rfl).symm k) = ix3 h j k :=
    funext fun c => Fin.ext (by
      match c with
      | ⟨0, _⟩ => exact score_rhs_0 _ _
      | ⟨1, _⟩ => exact score_rhs_1 _ _
      | ⟨2, _⟩ => exact (score_rhs_2 _ _).trans hk)
  rw [el, er]

/-! ## The product with the value block: batched over the heads, the left operand contracted on its last axis, the right on its middle one -/

/-- The left operand's head is the result's head. -/
theorem out_lhs_0 (i : S4x512x64.Idx) (k : dot_S4x512x512_S4x512x64_S4x512x64_2_1_1_2_0_0.contr.Idx) :
    (dot_S4x512x512_S4x512x64_S4x512x64_2_1_1_2_0_0.lhsIdx i k 0).val = (i 0).val := by
  unfold DotDims.lhsIdx
  rw [dif_pos (show (0 : Fin S4x512x512.rank) ∈ dot_S4x512x512_S4x512x64_S4x512x64_2_1_1_2_0_0.lhsBatch by decide)]
  rfl

/-- The left operand's row is the result's row. -/
theorem out_lhs_1 (i : S4x512x64.Idx) (k : dot_S4x512x512_S4x512x64_S4x512x64_2_1_1_2_0_0.contr.Idx) :
    (dot_S4x512x512_S4x512x64_S4x512x64_2_1_1_2_0_0.lhsIdx i k 1).val = (i 1).val := by
  unfold DotDims.lhsIdx
  rw [dif_neg (show ¬(1 : Fin S4x512x512.rank) ∈ dot_S4x512x512_S4x512x64_S4x512x64_2_1_1_2_0_0.lhsBatch by decide),
    dif_pos (show (1 : Fin S4x512x512.rank) ∈ dot_S4x512x512_S4x512x64_S4x512x64_2_1_1_2_0_0.lhsNonContracting by decide)]
  rfl

/-- The left operand's column is the contraction position. -/
theorem out_lhs_2 (i : S4x512x64.Idx) (k : dot_S4x512x512_S4x512x64_S4x512x64_2_1_1_2_0_0.contr.Idx) :
    (dot_S4x512x512_S4x512x64_S4x512x64_2_1_1_2_0_0.lhsIdx i k 2).val = (k ⟨0, by decide⟩).val :=
  dot_S4x512x512_S4x512x64_S4x512x64_2_1_1_2_0_0.lhsIdx_val_of_single rfl i k

/-- The right operand's head is the result's head. -/
theorem out_rhs_0 (i : S4x512x64.Idx) (k : dot_S4x512x512_S4x512x64_S4x512x64_2_1_1_2_0_0.contr.Idx) :
    (dot_S4x512x512_S4x512x64_S4x512x64_2_1_1_2_0_0.rhsIdx i k 0).val = (i 0).val := by
  unfold DotDims.rhsIdx
  rw [dif_pos (show (0 : Fin S4x512x64.rank) ∈ dot_S4x512x512_S4x512x64_S4x512x64_2_1_1_2_0_0.rhsBatch by decide)]
  rfl

/-- The right operand's row is the contraction position. -/
theorem out_rhs_1 (i : S4x512x64.Idx) (k : dot_S4x512x512_S4x512x64_S4x512x64_2_1_1_2_0_0.contr.Idx) :
    (dot_S4x512x512_S4x512x64_S4x512x64_2_1_1_2_0_0.rhsIdx i k 1).val = (k ⟨0, by decide⟩).val :=
  dot_S4x512x512_S4x512x64_S4x512x64_2_1_1_2_0_0.rhsIdx_val_of_single rfl i k

/-- The right operand's column is the result's column. -/
theorem out_rhs_2 (i : S4x512x64.Idx) (k : dot_S4x512x512_S4x512x64_S4x512x64_2_1_1_2_0_0.contr.Idx) :
    (dot_S4x512x512_S4x512x64_S4x512x64_2_1_1_2_0_0.rhsIdx i k 2).val = (i 2).val := by
  unfold DotDims.rhsIdx
  rw [dif_neg (show ¬(2 : Fin S4x512x64.rank) ∈ dot_S4x512x512_S4x512x64_S4x512x64_2_1_1_2_0_0.rhsBatch by decide),
    dif_pos (show (2 : Fin S4x512x64.rank) ∈ dot_S4x512x512_S4x512x64_S4x512x64_2_1_1_2_0_0.rhsNonContracting by decide)]
  rfl

/-- The product of a [4, 512, 512] block with the value block at (h, q, d): the sum over j of the left operand at
    (h, q, j) times the value block at (h, j, d). -/
theorem out_apply (p : FVec Ideal S4x512x512 .bf16) (v : FVec Ideal S4x512x64 .bf16) (h : Fin 4) (q : Fin 512) (d : Fin 64) :
    FloatOps.matmul dot_S4x512x512_S4x512x64_S4x512x64_2_1_1_2_0_0 none p v (constant S4x512x64 .f32 0x00000000#32) (ix3 h q d)
      = ∑ j : Fin 512, p (ix3 h q j) * v (ix3 h j d) := by
  rw [Ideal.matmul_constant_zero_apply, ← Equiv.sum_comp (contrEquiv1 dot_S4x512x512_S4x512x64_S4x512x64_2_1_1_2_0_0 512 rfl rfl).symm]
  refine Finset.sum_congr rfl fun k _ => ?_
  have hk := contrEquiv1_symm_val dot_S4x512x512_S4x512x64_S4x512x64_2_1_1_2_0_0 512 rfl rfl k
  have el : dot_S4x512x512_S4x512x64_S4x512x64_2_1_1_2_0_0.lhsIdx (ix3 h q d) ((contrEquiv1 dot_S4x512x512_S4x512x64_S4x512x64_2_1_1_2_0_0 512 rfl rfl).symm k) = ix3 h q k :=
    funext fun c => Fin.ext (by
      match c with
      | ⟨0, _⟩ => exact out_lhs_0 _ _
      | ⟨1, _⟩ => exact out_lhs_1 _ _
      | ⟨2, _⟩ => exact (out_lhs_2 _ _).trans hk)
  have er : dot_S4x512x512_S4x512x64_S4x512x64_2_1_1_2_0_0.rhsIdx (ix3 h q d) ((contrEquiv1 dot_S4x512x512_S4x512x64_S4x512x64_2_1_1_2_0_0 512 rfl rfl).symm k) = ix3 h k d :=
    funext fun c => Fin.ext (by
      match c with
      | ⟨0, _⟩ => exact out_rhs_0 _ _
      | ⟨1, _⟩ => exact (out_rhs_1 _ _).trans hk
      | ⟨2, _⟩ => exact out_rhs_2 _ _)
  rw [el, er]

/-! ## The mask: two iotas offset by 512 times the grid coordinates, compared as signed 32-bit words -/

/-- A number below 2048 read back signed from its 32-bit word is itself. -/
theorem toInt_ofNat_small (n : Nat) (hn : n < 2048) : (BitVec.ofNat 32 n).toInt = (n : Int) := by
  rw [BitVec.toInt_eq_toNat_cond, BitVec.toNat_ofNat]
  have hm : n % 2 ^ 32 = n := Nat.mod_eq_of_lt (by omega)
  rw [hm, if_pos (by omega)]

/-- A coordinate plus 512 times a grid coordinate, computed on 32-bit words, is the word of the number. -/
theorem offset_word (c x : Nat) :
    IntOp.addi (BitVec.ofNat 32 x) (Scalar.muli (BitVec.ofNat 32 c) 512#32) = BitVec.ofNat 32 (c * 512 + x) := by
  show BitVec.ofNat 32 x + BitVec.ofNat 32 c * BitVec.ofNat 32 512 = BitVec.ofNat 32 (c * 512 + x)
  rw [← BitVec.ofNat_mul, ← BitVec.ofNat_add, Nat.add_comm]

/-- The mask word at one entry is set exactly when the global column number is at most the global row number: both
    numbers are below 2048, so the signed comparison of their words is the comparison of the numbers. -/
theorem mask_iff (a b x y : Nat) (ha : a < 2) (hb : b < 2) (hx : x < 512) (hy : y < 512) :
    IntOp.cmpi .sle (IntOp.addi (BitVec.ofNat 32 x) (Scalar.muli (BitVec.ofNat 32 b) 512#32))
        (IntOp.addi (BitVec.ofNat 32 y) (Scalar.muli (BitVec.ofNat 32 a) 512#32)) = 1#1
      ↔ b * 512 + x ≤ a * 512 + y := by
  rw [IntOp.cmpi_sle, offset_word, offset_word, toInt_ofNat_small _ (by omega), toInt_ofNat_small _ (by omega)]
  omega

/-- A select on a word that is set exactly when a decidable condition holds is the `if` on that condition. -/
theorem select_of_iff {α : Type} (c : BitVec 1) (P : Prop) [Decidable P] (hc : c = 1#1 ↔ P) (a b : α) :
    Scalar.select c a b = if P then a else b := by
  unfold Scalar.select
  by_cases hP : P
  · exact (if_pos (hc.mpr hP)).trans (if_pos hP).symm
  · exact (if_neg (fun h => hP (hc.mp h))).trans (if_neg hP).symm

/-- The mask the kernel builds, at (h, q, j): set exactly when column j's global number is at most row q's. -/
theorem mask_apply (i : grid1.Coords) (h : Fin 4) (q j : Fin 512) :
    cmpi .sle
        (addi (iota .tc S4x512x512 32 [2] iota_S4x512x512_d2_w32) (broadcast S4x512x512 (Scalar.muli (BitVec.ofNat 32 (i 2).val) 512#32)))
        (addi (iota .tc S4x512x512 32 [1] iota_S4x512x512_d1_w32) (broadcast S4x512x512 (Scalar.muli (BitVec.ofNat 32 (i 1).val) 512#32)))
        (ix3 h q j) = 1#1
      ↔ (i 2).val * 512 + j.val ≤ (i 1).val * 512 + q.val := by
  show IntOp.cmpi .sle
      (IntOp.addi (iota .tc S4x512x512 32 [2] iota_S4x512x512_d2_w32 (ix3 h q j)) (Scalar.muli (BitVec.ofNat 32 (i 2).val) 512#32))
      (IntOp.addi (iota .tc S4x512x512 32 [1] iota_S4x512x512_d1_w32 (ix3 h q j)) (Scalar.muli (BitVec.ofNat 32 (i 1).val) 512#32)) = 1#1 ↔ _
  rw [iota_single_apply, iota_single_apply]
  exact mask_iff (i 1).val (i 2).val j.val q.val (i 1).isLt (i 2).isLt j.isLt q.isLt

/-! ## The second kernel's accumulation at one entry -/

/-- The block the second kernel stores at grid point i, at (h, q, d): the running total there plus the sum over the
    block's columns j of the masked, rectified score (h, q, j) times the value block at (h, j, d). The score is the sum
    over e of the scaled query at (h, q, e) times the key at (h, j, e); the scale stays the opaque word of the printed
    literal; the mask keeps column j when its global number is at most the row's. -/
theorem acc_apply (i : grid1.Coords) (v9 v15 v17 : Vec Ideal S4x512x64 .bf16) (v33 : Vec Ideal S4x512x64 .f32) (h : Fin 4) (q : Fin 512) (d : Fin 64) :
    k1_pay2 (F := Ideal) i v9 v15 v17 v33 (ix3 h q d)
      = v33 (ix3 h q d) + ∑ j : Fin 512, (if (i 2).val * 512 + j.val ≤ (i 1).val * 512 + q.val
            then max (∑ e : Fin 64, (v9 (ix3 h q e) * Ideal.ofBits .f32 0x3E000000#32) * v15 (ix3 h j e)) 0 else 0) * v17 (ix3 h j d) := by
  unfold k1_pay2
  simp only [shapeCast_self]
  refine congrArg (fun t : EReal => v33 (ix3 h q d) + t) ?_
  refine (out_apply _ v17 h q d).trans ?_
  refine Finset.sum_congr rfl fun j _ => ?_
  refine congrArg (fun t : EReal => t * v17 (ix3 h j d)) ?_
  refine (select_of_iff _ _ (mask_apply i h q j) _ _).trans ?_
  refine congrArg₂ (fun a b : EReal => if (i 2).val * 512 + j.val ≤ (i 1).val * 512 + q.val then a else b) ?_ Ideal.ofBits_zero_f32
  refine congrArg₂ (fun a b : EReal => max a b) ?_ Ideal.ofBits_zero_f32
  exact score_apply _ v15 h q j

end Cert.Payload

end
-- ==== Proof.QkvValue.lean ====
/-
  The projection kernel's region, read as one array: after its sixteen points the output array holds, at row r and
  column o, the inner product of row r of the input array with row o of the weight, plus bias o.

  Point t takes rows 512·t … 512·t + 511 of the input, the whole weight and the whole bias, and writes back block
  (t, 0) of the output. One entry of what a point leaves is the payload's entry (`outBlock_apply`); read where the
  output entry's coordinates say, it is the projection's entry (`point_apply`, over plain blocks and arrays); the
  windows' blocks sit in their arrays at the block index times the block size (`idx_facts`, `flushed3_eq`); the
  blocks cover the output array, row r in the block of point r / 512 (`cover3`); so the array is the projection
  (`arr0`).
-/
import proofs.«159418_j18717467476434_2_alg».proof.Proof.QkvBody
import proofs.«159418_j18717467476434_2_alg».proof.Proof.Payload
import proofs.«159418_j18717467476434_2_alg».proof.Proof.Spec
import Idealize.ShloMosaic.Lib.Pipeline.Value
import Idealize.ShloMosaic.Lib.ValueIdx

noncomputable section

open scoped BigOperators

namespace Cert.KernelIdeal.QkvValue

open Cert.KernelIdeal Cert.KernelIdeal.Gen Cert.KernelIdeal.QkvBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What a point leaves in the output window's buffer, at one entry: the product of the row block with the weight's
    transpose plus the bias. -/
theorem outBlock_apply (x0 : Vec Ideal S512x768 .f32) (x1 : Vec Ideal S2304x768 .bf16) (x2 : Vec Ideal S2304 .f32) (r : Fin 512) (o : Fin 2304) :
    outBlock x0 x1 x2 (ix2 r o) = (∑ k : Fin 768, x0 (ix2 r k) * x1 (ix2 o k)) + x2 (ix1 o) := by
  unfold outBlock
  rw [View.canon_unit_zero hz2]
  simp only [View.ld_unit_zero (S := S512x768) hz2, View.ld_unit_zero (S := S2304x768) hz2, View.ld_unit_zero (S := S2304) hz1]
  exact Cert.Payload.qkv_apply x0 x1 x2 r o

/-- A point's block is the projection's block: when the point's row block holds rows of the input array, its weight
    block the weight and its bias block the bias, each read where the output entry's coordinates say, the entry the
    point leaves is the projection's entry. -/
theorem point_apply (x0 : Vec Ideal S512x768 .f32) (x1 : Vec Ideal S2304x768 .bf16) (x2 : Vec Ideal S2304 .f32)
    (X : FVec Ideal S8192x768 .f32) (Wb : FVec Ideal S2304x768 .bf16) (B : FVec Ideal S2304 .f32)
    (y : S512x2304.Idx) (i : S8192x2304.Idx)
    (h0 : ∀ k : Fin 768, x0 (ix2 (y 0) k) = X (ix2 (i 0) k))
    (h1 : ∀ k : Fin 768, x1 (ix2 (y 1) k) = Wb (ix2 (i 1) k))
    (h2 : x2 (ix1 (y 1)) = B (ix1 (i 1))) :
    outBlock x0 x1 x2 y = Spec.projRows X Wb B i := by
  refine ((congrArg (outBlock x0 x1 x2) (eq_ix2 y)).trans (outBlock_apply x0 x1 x2 (y 0) (y 1))).trans ?_
  show _ = (∑ k : Fin 768, X (ix2 (i 0) k) * Wb (ix2 (i 1) k)) + B (ix1 (i 1))
  rw [h2]
  exact congrArg (fun s : EReal => s + B (ix1 (i 1))) (Finset.sum_congr rfl fun k _ => by rw [h0 k, h1 k])

/-- The printed index maps, decided over the grid: the row block moves with the output block, whose block index is the
    point's number; the weight and the bias stay. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

theorem flushed3_eq (c : Dev nD) (t : Fin cfg0.N) :
    (dat0 V c).flushed 3 t = ((cfg0.win 3).blk t).view.read (Elt Ideal) (Spec.projRows (V c main_v1) (V c main_v0) (V c main_arg2)) := by
  show (cfg0.win 3).cut (grid0.coords t) ((dat0 V c).after 3 t) = _
  rw [after0_3]
  funext y
  show outBlock (iblk0 V c 0 t) (iblk0 V c 1 t) (iblk0 V c 2 t) y
    = Spec.projRows (V c main_v1) (V c main_v0) (V c main_arg2) (((cfg0.win 3).blk t).view.emb y)
  obtain ⟨e0, e1, e2, e3, e4, e5, e6⟩ := idx_facts t
  refine point_apply _ _ _ _ _ _ y _ (fun k => ?_) (fun k => ?_) ?_
  · unfold iblk0
    rw [View.read_apply]
    show V c main_v1 _ = V c main_v1 _
    refine congrArg (V c main_v1) (funext fun a => Fin.ext ?_)
    match a with
    | ⟨0, _⟩ => show win0_0.index t (0 : Fin 2) * 512 + 1 * (y 0).val = win0_3.index t (0 : Fin 2) * 512 + 1 * (y 0).val; omega
    | ⟨1, _⟩ => show win0_0.index t (1 : Fin 2) * 768 + 1 * k.val = k.val; omega
  · unfold iblk0
    rw [View.read_apply]
    show V c main_v0 _ = V c main_v0 _
    refine congrArg (V c main_v0) (funext fun a => Fin.ext ?_)
    match a with
    | ⟨0, _⟩ => show win0_1.index t (0 : Fin 2) * 2304 + 1 * (y 1).val = win0_3.index t (1 : Fin 2) * 2304 + 1 * (y 1).val; omega
    | ⟨1, _⟩ => show win0_1.index t (1 : Fin 2) * 768 + 1 * k.val = k.val; omega
  · unfold iblk0
    rw [View.read_apply]
    show V c main_arg2 _ = V c main_arg2 _
    refine congrArg (V c main_arg2) (funext fun a => Fin.ext ?_)
    match a with
    | ⟨0, _⟩ => show win0_2.index t (0 : Fin 1) * 2304 + 1 * (y 1).val = win0_3.index t (1 : Fin 2) * 2304 + 1 * (y 1).val; omega

/-- An index of the output array is in point t's block iff each coordinate is in the block's range on its axis. -/
theorem mem_blk3 (t : Fin cfg0.N) (i : S8192x2304.Idx) :
    i ∈ ((cfg0.win 3).blk t).view.set ↔ ∀ a : Fin 2, win0_3.index t a * S512x2304.size a ≤ (i a).val ∧ (i a).val < win0_3.index t a * S512x2304.size a + S512x2304.size a := by
  show i ∈ ((View.whole main_v2).slice (win0_3.rect t)).set ↔ _
  rw [View.set_slice_whole, Rect.mem_set_unit]
  exact Iff.rfl

/-- Every entry of the output array is in the block of the point numbered by its row divided by 512. -/
theorem cover3 (i : S8192x2304.Idx) : ∃ t : Fin cfg0.N, (cfg0.win 3).flush t = true ∧ i ∈ ((cfg0.win 3).blk t).view.set := by
  have hi0 : (i 0).val < 8192 := (i 0).isLt
  have hi1 : (i 1).val < 2304 := (i 1).isLt
  have hN : cfg0.N = 16 := N_0
  let t : Fin cfg0.N := ⟨(i 0).val / 512, by omega⟩
  obtain ⟨e0, e1, -⟩ := idx_facts t
  refine ⟨t, flush0_3 t, ?_⟩
  rw [mem_blk3]
  intro a
  match a with
  | ⟨0, _⟩ =>
    show win0_3.index t (0 : Fin 2) * 512 ≤ (i 0).val ∧ (i 0).val < win0_3.index t (0 : Fin 2) * 512 + 512
    rw [e0]
    show (i 0).val / 512 * 512 ≤ (i 0).val ∧ (i 0).val < (i 0).val / 512 * 512 + 512
    omega
  | ⟨1, _⟩ =>
    show win0_3.index t (1 : Fin 2) * 2304 ≤ (i 1).val ∧ (i 1).val < win0_3.index t (1 : Fin 2) * 2304 + 2304
    rw [e1]
    omega

/-- After the region the output array holds the projection of every row of the input array the region found. -/
theorem arr0 (c : Dev nD) : (dat0 V c).arrAt 3 cfg0.N = Spec.projRows (V c main_v1) (V c main_v0) (V c main_arg2) :=
  (dat0 V c).arrAt_eq_of_cover 3 _ (fun t _ => flushed3_eq V c t) cover3

end Cert.KernelIdeal.QkvValue

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.AttnMath.lean ====
/-
  The arithmetic that joins a two-block accumulation of masked attention to the one masked sum over all key rows,
  on the extended reals.

  A query row's output entry is the sum over the 1024 key rows `j` of a weight times a value entry; the weight is
  zero for `j` above the query's row and otherwise the score `∑ₑ Q[e] · K[j, e]`, scaled by the constant `2⁻³` and
  clamped below at zero. Two things differ between the two spellings compared here. First, the scale: one side scales
  each query entry before the contraction, the other scales the contraction. The constant is a non-negative real, and
  multiplication by a non-negative real distributes over every sum of extended reals (the infinities included), so
  the two agree (`scale_out`). Second, the blocks: the key rows are cut into two blocks of 512. A query row below 512
  sees only the first block, and in the full sum the second block's weights are all zero, each term `0 · v = 0`
  whatever `v` is (`lower_rows`). A query row from 512 on sees the whole first block and the masked second one, and
  the full sum is the sum of the two halves, index `512 · c + j` (`upper_rows`).
-/
import Mathlib.Data.EReal.Operations
import Mathlib.Algebra.BigOperators.Fin
import Idealize.ShloMosaic.PureOps.Ideal
import proofs.«159418_j18717467476434_2_alg».proof.Proof.LibChunkSum

noncomputable section

namespace Cert.AttnMath

open Idealize.ShloMosaic
open scoped BigOperators

/-- The score scale, as the word the programs spell. -/
local notation "c8" => Ideal.ofBits FTy.f32 0x3E000000#32

/-- The scale's word denotes one eighth. -/
theorem c8_eq : c8 = ((1 / 8 : ℝ) : EReal) := by
  simp [Ideal.ofBits, Ideal.ieee, -EReal.coe_mul]; norm_num

/-- The scale is the coercion of a non-negative real. -/
theorem c8_real : ∃ r : ℝ, 0 ≤ r ∧ c8 = (r : EReal) := ⟨1 / 8, by norm_num, c8_eq⟩

/-- Multiplication by a non-negative real distributes over a finite sum of extended reals. -/
theorem sum_mul_coe {ι : Type*} (s : Finset ι) (x : ι → EReal) (r : ℝ) (hr : 0 ≤ r) :
    ∑ i ∈ s, x i * (r : EReal) = (∑ i ∈ s, x i) * (r : EReal) := by
  classical
  induction s using Finset.induction_on with
  | empty => simp
  | insert a s ha ih =>
    rw [Finset.sum_insert ha, Finset.sum_insert ha, ih,
      EReal.right_distrib_of_nonneg_of_ne_top (EReal.coe_nonneg.2 hr) (EReal.coe_ne_top r)]

/-- Scaling each query entry before the contraction is scaling the contraction. -/
theorem scale_out (a b : Fin 64 → EReal) : (∑ e : Fin 64, (a e * c8) * b e) = (∑ e : Fin 64, a e * b e) * c8 := by
  obtain ⟨r, hr, hc⟩ := c8_real
  rw [hc, ← sum_mul_coe Finset.univ (fun e => a e * b e) r hr]
  exact Finset.sum_congr rfl fun e _ => mul_right_comm _ _ _

/-- One term of the two spellings: the same key row under two names, equivalent mask conditions, and the scale inside
    or outside the contraction. -/
theorem term_eq (Qr : Fin 64 → EReal) (Kr : Fin 1024 → Fin 64 → EReal) (Vc : Fin 1024 → EReal) (j j' : Fin 1024)
    (hj : j = j') (P P' : Prop) [Decidable P] [Decidable P'] (hP : P ↔ P') :
    (if P then max (∑ e : Fin 64, (Qr e * c8) * Kr j e) 0 else 0) * Vc j
      = (if P' then max ((∑ e : Fin 64, Qr e * Kr j' e) * c8) 0 else 0) * Vc j' := by
  subst hj
  rw [scale_out, if_congr hP rfl rfl]

/-- The full masked sum over the 1024 key rows, cut into its two halves of 512. -/
theorem full_sum_halves (T : Fin 1024 → EReal) :
    ∑ j : Fin 1024, T j
      = (∑ j : Fin 512, T ⟨j.val, by omega⟩) + ∑ j : Fin 512, T ⟨512 + j.val, by omega⟩ := by
  have h := Cert.LibChunkSum.sum_chunks (M := EReal) 2 512 (fun i : Fin (2 * 512) => T ⟨i.val, by omega⟩)
    (fun c j => ⟨512 * c.val + j.val, by omega⟩) (fun _ _ => rfl)
  rw [Fin.sum_univ_two] at h
  refine Eq.trans ?_ (h.trans ?_)
  · rfl
  · refine congrArg₂ (· + ·) (Finset.sum_congr rfl fun j _ => congrArg T (Fin.ext ?_))
      (Finset.sum_congr rfl fun j _ => congrArg T (Fin.ext ?_))
    · show 512 * (0 : Fin 2).val + j.val = j.val
      simp
    · show 512 * (1 : Fin 2).val + j.val = 512 + j.val
      simp

/-- A query row below 512: the accumulation over the first key block, started at zero, is the full masked sum — the
    second block's weights are zero there, and zero times any extended real is zero. -/
theorem lower_rows (Qr : Fin 64 → EReal) (Kr : Fin 1024 → Fin 64 → EReal) (Vc : Fin 1024 → EReal) (q : Fin 512) :
    (0 : EReal) + ∑ j : Fin 512, (if 0 * 512 + j.val ≤ 0 * 512 + q.val then max (∑ e : Fin 64, (Qr e * c8) * Kr ⟨j.val, by omega⟩ e) 0 else 0) * Vc ⟨j.val, by omega⟩
      = ∑ j : Fin 1024, (if j.val ≤ q.val then max ((∑ e : Fin 64, Qr e * Kr j e) * c8) 0 else 0) * Vc j := by
  rw [full_sum_halves, zero_add]
  have h2 : ∑ j : Fin 512, (if (⟨512 + j.val, by omega⟩ : Fin 1024).val ≤ q.val
      then max ((∑ e : Fin 64, Qr e * Kr ⟨512 + j.val, by omega⟩ e) * c8) 0 else 0) * Vc ⟨512 + j.val, by omega⟩ = 0 :=
    Finset.sum_eq_zero fun j _ => by
      have hq := q.isLt
      rw [if_neg (by show ¬(512 + j.val ≤ q.val); omega), zero_mul]
  rw [h2, add_zero]
  exact Finset.sum_congr rfl fun j _ =>
    term_eq Qr Kr Vc _ _ rfl _ _ (by show 0 * 512 + j.val ≤ 0 * 512 + q.val ↔ j.val ≤ q.val; omega)

/-- A query row from 512 on: the accumulation over the first key block and then the second, started at zero, is the
    full masked sum cut into its two halves. -/
theorem upper_rows (Qr : Fin 64 → EReal) (Kr : Fin 1024 → Fin 64 → EReal) (Vc : Fin 1024 → EReal) (q : Fin 512) :
    ((0 : EReal) + ∑ j : Fin 512, (if 0 * 512 + j.val ≤ 1 * 512 + q.val then max (∑ e : Fin 64, (Qr e * c8) * Kr ⟨j.val, by omega⟩ e) 0 else 0) * Vc ⟨j.val, by omega⟩)
        + ∑ j : Fin 512, (if 1 * 512 + j.val ≤ 1 * 512 + q.val then max (∑ e : Fin 64, (Qr e * c8) * Kr ⟨512 + j.val, by omega⟩ e) 0 else 0) * Vc ⟨512 + j.val, by omega⟩
      = ∑ j : Fin 1024, (if j.val ≤ 512 + q.val then max ((∑ e : Fin 64, Qr e * Kr j e) * c8) 0 else 0) * Vc j := by
  rw [full_sum_halves, zero_add]
  refine congrArg₂ (· + ·) (Finset.sum_congr rfl fun j _ => ?_) (Finset.sum_congr rfl fun j _ => ?_)
  · exact term_eq Qr Kr Vc _ _ rfl _ _ (by show 0 * 512 + j.val ≤ 1 * 512 + q.val ↔ j.val ≤ 512 + q.val; omega)
  · exact term_eq Qr Kr Vc _ _ rfl _ _ (by show 1 * 512 + j.val ≤ 1 * 512 + q.val ↔ 512 + j.val ≤ 512 + q.val; omega)

end Cert.AttnMath

end
-- ==== Proof.AttnValue.lean ====
/-
  The attention kernel's region, read as one array: after its ninety-six points the output array holds, for fused head
  g, query row q and feature d, the sum over the key rows j ≤ q of the rectified scaled score of (q, j) times value
  (j, d).

  Point t = 4·b + 2·r + s works on heads 4·b … 4·b + 3, query rows 512·r … 512·r + 511 and key rows
  512·min(s, r) … 512·min(s, r) + 511; it writes its output block (b, r) back exactly when s = 1. At s = 0 the running
  total restarts from zero and takes the first key block's contribution. At r = 0, s = 1 the second key block lies
  wholly above the diagonal and the running total is written out as it stands: a query row below 512 sees only the
  first key block. At r = 1, s = 1 the second key block's masked contribution is added and the total written out: a
  query row from 512 on sees the whole first block and the masked second. Both cases are the full masked sum over the
  1024 key rows; the written blocks tile the output array, entry (g, q, d) in the block of point
  4·(g / 4) + 2·(q / 512) + 1.
-/
import proofs.«159418_j18717467476434_2_alg».proof.Proof.AttnBody
import proofs.«159418_j18717467476434_2_alg».proof.Proof.Payload
import proofs.«159418_j18717467476434_2_alg».proof.Proof.AttnMath
import proofs.«159418_j18717467476434_2_alg».proof.Proof.Spec
import Idealize.ShloMosaic.Lib.Pipeline.Value
import Idealize.ShloMosaic.Lib.ValueIdx

noncomputable section

open scoped BigOperators

namespace Cert.KernelIdeal.AttnValue

open Cert.KernelIdeal Cert.KernelIdeal.Gen Cert.KernelIdeal.AttnBody
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Where the blocks sit -/

/-- The printed index maps and the grid's coordinates, decided over the grid: at point t the query and output blocks
    have block index (t / 4, t / 2 mod 2, 0), the key and value blocks (t / 4, min (t / 2 mod 2) (t mod 2), 0), and the
    point's second and third grid coordinates are t / 2 mod 2 and t mod 2. -/
theorem idx_facts : ∀ t : Fin cfg1.N,
    win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = min (t.val / 2 % 2) (t.val % 2) ∧ win1_1.index t (2 : Fin 3) = 0
    ∧ win1_2.index t (0 : Fin 3) = t.val / 4 ∧ win1_2.index t (1 : Fin 3) = min (t.val / 2 % 2) (t.val % 2) ∧ win1_2.index t (2 : Fin 3) = 0
    ∧ win1_3.index t (0 : Fin 3) = t.val / 4 ∧ win1_3.index t (1 : Fin 3) = t.val / 2 % 2 ∧ win1_3.index t (2 : Fin 3) = 0
    ∧ (grid1.coords t 1).val = t.val / 2 % 2 ∧ (grid1.coords t 2).val = t.val % 2 :=
  (by decide +kernel : ∀ t : Fin grid1.N, _)

/-- The query block of point n, at one entry, is the query array where the block sits. -/
theorem qblk_apply (c : Dev nD) (n : Nat) (hn : n < cfg1.N) (y : S4x512x64.Idx) (z : S96x1024x64.Idx)
    (h0 : (z 0).val = n / 4 * 4 + (y 0).val) (h1 : (z 1).val = n / 2 % 2 * 512 + (y 1).val)
    (h2 : (z 2).val = (y 2).val) :
    iblk1 V c 0 ⟨n, hn⟩ y = V c main_v9 z := by
  have hv : (⟨n, hn⟩ : Fin cfg1.N).val = n := rfl
  obtain ⟨e0, e1, e2, -⟩ := idx_facts ⟨n, hn⟩
  unfold iblk1
  rw [View.read_apply]
  show V c main_v9 _ = V c main_v9 _
  refine congrArg (V c main_v9) (funext fun a => Fin.ext ?_)
  match a with
  | ⟨0, _⟩ => show win1_0.index ⟨n, hn⟩ (0 : Fin 3) * 4 + 1 * (y 0).val = (z 0).val; omega
  | ⟨1, _⟩ => show win1_0.index ⟨n, hn⟩ (1 : Fin 3) * 512 + 1 * (y 1).val = (z 1).val; omega
  | ⟨2, _⟩ => show win1_0.index ⟨n, hn⟩ (2 : Fin 3) * 64 + 1 * (y 2).val = (z 2).val; omega

/-- The key block of point n, at one entry, is the key array where the block sits. -/
theorem kblk_apply (c : Dev nD) (n : Nat) (hn : n < cfg1.N) (y : S4x512x64.Idx) (z : S96x1024x64.Idx)
    (h0 : (z 0).val = n / 4 * 4 + (y 0).val) (h1 : (z 1).val = min (n / 2 % 2) (n % 2) * 512 + (y 1).val)
    (h2 : (z 2).val = (y 2).val) :
    iblk1 V c 1 ⟨n, hn⟩ y = V c main_v12 z := by
  have hv : (⟨n, hn⟩ : Fin cfg1.N).val = n := rfl
  obtain ⟨-, -, -, e0, e1, e2, -⟩ := idx_facts ⟨n, hn⟩
  unfold iblk1
  rw [View.read_apply]
  show V c main_v12 _ = V c main_v12 _
  refine congrArg (V c main_v12) (funext fun a => Fin.ext ?_)
  match a with
  | ⟨0, _⟩ => show win1_1.index ⟨n, hn⟩ (0 : Fin 3) * 4 + 1 * (y 0).val = (z 0).val; omega
  | ⟨1, _⟩ => show win1_1.index ⟨n, hn⟩ (1 : Fin 3) * 512 + 1 * (y 1).val = (z 1).val; omega
  | ⟨2, _⟩ => show win1_1.index ⟨n, hn⟩ (2 : Fin 3) * 64 + 1 * (y 2).val = (z 2).val; omega

/-- The value block of point n, at one entry, is the value array where the block sits. -/
theorem vblk_apply (c : Dev nD) (n : Nat) (hn : n < cfg1.N) (y : S4x512x64.Idx) (z : S96x1024x64.Idx)
    (h0 : (z 0).val = n / 4 * 4 + (y 0).val) (h1 : (z 1).val = min (n / 2 % 2) (n % 2) * 512 + (y 1).val)
    (h2 : (z 2).val = (y 2).val) :
    iblk1 V c 2 ⟨n, hn⟩ y = V c main_v15 z := by
  have hv : (⟨n, hn⟩ : Fin cfg1.N).val = n := rfl
  obtain ⟨-, -, -, -, -, -, e0, e1, e2, -⟩ := idx_facts ⟨n, hn⟩
  unfold iblk1
  rw [View.read_apply]
  show V c main_v15 _ = V c main_v15 _
  refine congrArg (V c main_v15) (funext fun a => Fin.ext ?_)
  match a with
  | ⟨0, _⟩ => show win1_2.index ⟨n, hn⟩ (0 : Fin 3) * 4 + 1 * (y 0).val = (z 0).val; omega
  | ⟨1, _⟩ => show win1_2.index ⟨n, hn⟩ (1 : Fin 3) * 512 + 1 * (y 1).val = (z 1).val; omega
  | ⟨2, _⟩ => show win1_2.index ⟨n, hn⟩ (2 : Fin 3) * 64 + 1 * (y 2).val = (z 2).val; omega

/-- Every index of a block is given by its three coordinates. -/
theorem split3 (y : S4x512x64.Idx) : ∃ (h : Fin 4) (q : Fin 512) (d : Fin 64), y = ix3 h q d :=
  ⟨y 0, y 1, y 2, eq_ix3 y⟩

/-- The grid coordinates of point n. -/
theorem coords_at (n : Nat) (hn : n < cfg1.N) :
    (grid1.coords (⟨n, hn⟩ : Fin cfg1.N) 1).val = n / 2 % 2 ∧ (grid1.coords (⟨n, hn⟩ : Fin cfg1.N) 2).val = n % 2 := by
  obtain ⟨-, -, -, -, -, -, -, -, -, -, -, -, e1, e2⟩ := idx_facts ⟨n, hn⟩
  exact ⟨e1, e2⟩

/-! ## One entry of what a point writes back -/

/-- A query row below 512 (second grid coordinate 0), after the first key block (third grid coordinate 0), started from
    zero: when the point's blocks hold the arrays' entries where the output entry's coordinates say, the entry is the
    attention result's. -/
theorem lower_point (xq xk xv : Vec Ideal S4x512x64 .bf16) (Q K W : FVec Ideal S96x1024x64 .bf16)
    (i : grid1.Coords) (hi1 : (i 1).val = 0) (hi2 : (i 2).val = 0)
    (h : Fin 4) (q : Fin 512) (d : Fin 64) (g : Fin 96) (r : Fin 1024) (hr : r.val = q.val)
    (hQ : ∀ e : Fin 64, xq (ix3 h q e) = Q (ix3 g r e))
    (hK : ∀ (j : Fin 512) (e : Fin 64), xk (ix3 h j e) = K (ix3 g (⟨j.val, by omega⟩ : Fin 1024) e))
    (hV : ∀ j : Fin 512, xv (ix3 h j d) = W (ix3 g (⟨j.val, by omega⟩ : Fin 1024) d)) :
    k1_pay2 (F := Ideal) i xq xk xv (k1_pay1 (F := Ideal)) (ix3 h q d) = Spec.attnAt Q K W g r d := by
  rw [Cert.Payload.acc_apply, Cert.Payload.zero_apply, hi1, hi2]
  simp only [hQ, hK, hV]
  refine (Cert.AttnMath.lower_rows (fun e => Q (ix3 g r e)) (fun j e => K (ix3 g j e)) (fun j => W (ix3 g j d)) q).trans ?_
  unfold Spec.attnAt
  rw [hr]

/-- A query row from 512 on (second grid coordinate 1), after the first key block (third grid coordinate 0) and then
    the second (third grid coordinate 1), started from zero: the entry is the attention result's. -/
theorem upper_point (xq xk0 xv0 xq' xk1 xv1 : Vec Ideal S4x512x64 .bf16) (Q K W : FVec Ideal S96x1024x64 .bf16)
    (i0 i1 : grid1.Coords) (h01 : (i0 1).val = 1) (h02 : (i0 2).val = 0) (h11 : (i1 1).val = 1) (h12 : (i1 2).val = 1)
    (h : Fin 4) (q : Fin 512) (d : Fin 64) (g : Fin 96) (r : Fin 1024) (hr : r.val = 512 + q.val)
    (hQ0 : ∀ e : Fin 64, xq (ix3 h q e) = Q (ix3 g r e))
    (hQ1 : ∀ e : Fin 64, xq' (ix3 h q e) = Q (ix3 g r e))
    (hK0 : ∀ (j : Fin 512) (e : Fin 64), xk0 (ix3 h j e) = K (ix3 g (⟨j.val, by omega⟩ : Fin 1024) e))
    (hV0 : ∀ j : Fin 512, xv0 (ix3 h j d) = W (ix3 g (⟨j.val, by omega⟩ : Fin 1024) d))
    (hK1 : ∀ (j : Fin 512) (e : Fin 64), xk1 (ix3 h j e) = K (ix3 g (⟨512 + j.val, by omega⟩ : Fin 1024) e))
    (hV1 : ∀ j : Fin 512, xv1 (ix3 h j d) = W (ix3 g (⟨512 + j.val, by omega⟩ : Fin 1024) d)) :
    k1_pay2 (F := Ideal) i1 xq' xk1 xv1 (k1_pay2 (F := Ideal) i0 xq xk0 xv0 (k1_pay1 (F := Ideal))) (ix3 h q d)
      = Spec.attnAt Q K W g r d := by
  rw [Cert.Payload.acc_apply i1 xq' xk1 xv1 _ h q d, Cert.Payload.acc_apply i0 xq xk0 xv0 _ h q d,
    Cert.Payload.zero_apply, h01, h02, h11, h12]
  simp only [hQ0, hQ1, hK0, hV0, hK1, hV1]
  refine (Cert.AttnMath.upper_rows (fun e => Q (ix3 g r e)) (fun j e => K (ix3 g j e)) (fun j => W (ix3 g j d)) q).trans ?_
  unfold Spec.attnAt
  rw [hr]

/-! ## What a point writes back -/

/-- WHAT AN ODD POINT WRITES BACK is its block of the attention result of the three arrays the region found, given the
    three step equations of the running total: restarted and advanced at an even point (`hA`), handed on unchanged at a
    point ≡ 1 mod 4 (`hB`), advanced once more at a point ≡ 3 mod 4 (`hC`). -/
theorem flushed3_eq (c : Dev nD)
    (hA : ∀ t : Fin cfg1.N, t.val % 2 = 0 → (outsAt1 V c t.val t.isLt).2
      = k1_pay2 (grid1.coords t) (iblk1 V c 0 t) (iblk1 V c 1 t) (iblk1 V c 2 t) (k1_pay1 (F := Ideal)))
    (hB : ∀ (t : Fin cfg1.N) (h : t.val % 4 = 1), (outsAt1 V c t.val t.isLt).1
      = (outsAt1 V c (t.val - 1) (by have := t.isLt; omega)).2)
    (hC : ∀ (t : Fin cfg1.N) (h : t.val % 4 = 3), (outsAt1 V c t.val t.isLt).1
      = k1_pay2 (grid1.coords t) (iblk1 V c 0 t) (iblk1 V c 1 t) (iblk1 V c 2 t) (outsAt1 V c (t.val - 1) (by have := t.isLt; omega)).2)
    (t : Fin cfg1.N) (hf : (cfg1.win 3).flush t = true) :
    (dat1 V c).flushed 3 t
      = ((cfg1.win 3).blk t).view.read (Elt Ideal) (Spec.attnRows (V c main_v9) (V c main_v12) (V c main_v15)) := by
  have hodd : t.val % 2 = 1 := (flush1_3 t).mp hf
  have hN : cfg1.N = 96 := N_1
  have ht : t.val < cfg1.N := t.isLt
  have ht' : t.val - 1 < cfg1.N := by omega
  show (cfg1.win 3).cut (grid1.coords t) ((dat1 V c).after 3 t) = _
  funext y
  obtain ⟨h, q, d, rfl⟩ := split3 y
  show (outsAt1 V c t.val t.isLt).1 (ix3 h q d)
    = Spec.attnRows (V c main_v9) (V c main_v12) (V c main_v15) (((cfg1.win 3).blk t).view.emb (ix3 h q d))
  have hz : ((cfg1.win 3).blk t).view.emb (ix3 h q d)
      = ix3 (⟨t.val / 4 * 4 + h.val, by omega⟩ : Fin 96) (⟨t.val / 2 % 2 * 512 + q.val, by omega⟩ : Fin 1024) d := by
    obtain ⟨-, -, -, -, -, -, -, -, -, e0, e1, e2, -⟩ := idx_facts t
    refine funext fun a => Fin.ext ?_
    match a with
    | ⟨0, _⟩ => show win1_3.index t (0 : Fin 3) * 4 + 1 * h.val = t.val / 4 * 4 + h.val; omega
    | ⟨1, _⟩ => show win1_3.index t (1 : Fin 3) * 512 + 1 * q.val = t.val / 2 % 2 * 512 + q.val; omega
    | ⟨2, _⟩ => show win1_3.index t (2 : Fin 3) * 64 + 1 * d.val = d.val; omega
  rw [hz, Spec.attnRows_apply]
  obtain ⟨c1', c2'⟩ := coords_at (t.val - 1) ht'
  obtain ⟨c1, c2⟩ := coords_at t.val ht
  rcases (by omega : t.val % 4 = 1 ∨ t.val % 4 = 3) with h4 | h4
  · -- the second key block is skipped: the total after the first block is written out
    refine (congrFun (hB t h4) (ix3 h q d)).trans ?_
    refine (congrFun (hA ⟨t.val - 1, ht'⟩ (by show (t.val - 1) % 2 = 0; omega)) (ix3 h q d)).trans ?_
    refine lower_point _ _ _ _ _ _ _ (by rw [c1']; omega) (by rw [c2']; omega) h q d _ _
      (by show t.val / 2 % 2 * 512 + q.val = q.val; omega) (fun e => ?_) (fun j e => ?_) (fun j => ?_)
    · exact qblk_apply V c (t.val - 1) ht' (ix3 h q e) _
        (by show t.val / 4 * 4 + h.val = (t.val - 1) / 4 * 4 + h.val; omega)
        (by show t.val / 2 % 2 * 512 + q.val = (t.val - 1) / 2 % 2 * 512 + q.val; omega) rfl
    · exact kblk_apply V c (t.val - 1) ht' (ix3 h j e) _
        (by show t.val / 4 * 4 + h.val = (t.val - 1) / 4 * 4 + h.val; omega)
        (by show j.val = min ((t.val - 1) / 2 % 2) ((t.val - 1) % 2) * 512 + j.val; omega) rfl
    · exact vblk_apply V c (t.val - 1) ht' (ix3 h j d) _
        (by show t.val / 4 * 4 + h.val = (t.val - 1) / 4 * 4 + h.val; omega)
        (by show j.val = min ((t.val - 1) / 2 % 2) ((t.val - 1) % 2) * 512 + j.val; omega) rfl
  · -- the second key block's masked contribution is added to the total after the first
    refine (congrFun (hC t h4) (ix3 h q d)).trans ?_
    refine (congrArg (fun s => k1_pay2 (F := Ideal) (grid1.coords t) (iblk1 V c 0 t) (iblk1 V c 1 t) (iblk1 V c 2 t) s (ix3 h q d))
      (hA ⟨t.val - 1, ht'⟩ (by show (t.val - 1) % 2 = 0; omega))).trans ?_
    refine upper_point _ _ _ _ _ _ _ _ _ _ _ (by rw [c1']; omega) (by rw [c2']; omega) (by rw [c1]; omega) (by rw [c2]; omega)
      h q d _ _ (by show t.val / 2 % 2 * 512 + q.val = 512 + q.val; omega)
      (fun e => ?_) (fun e => ?_) (fun j e => ?_) (fun j => ?_) (fun j e => ?_) (fun j => ?_)
    · exact qblk_apply V c (t.val - 1) ht' (ix3 h q e) _
        (by show t.val / 4 * 4 + h.val = (t.val - 1) / 4 * 4 + h.val; omega)
        (by show t.val / 2 % 2 * 512 + q.val = (t.val - 1) / 2 % 2 * 512 + q.val; omega) rfl
    · exact qblk_apply V c t.val ht (ix3 h q e) _ rfl rfl rfl
    · exact kblk_apply V c (t.val - 1) ht' (ix3 h j e) _
        (by show t.val / 4 * 4 + h.val = (t.val - 1) / 4 * 4 + h.val; omega)
        (by show j.val = min ((t.val - 1) / 2 % 2) ((t.val - 1) % 2) * 512 + j.val; omega) rfl
    · exact vblk_apply V c (t.val - 1) ht' (ix3 h j d) _
        (by show t.val / 4 * 4 + h.val = (t.val - 1) / 4 * 4 + h.val; omega)
        (by show j.val = min ((t.val - 1) / 2 % 2) ((t.val - 1) % 2) * 512 + j.val; omega) rfl
    · exact kblk_apply V c t.val ht (ix3 h j e) _ rfl
        (by show 512 + j.val = min (t.val / 2 % 2) (t.val % 2) * 512 + j.val; omega) rfl
    · exact vblk_apply V c t.val ht (ix3 h j d) _ rfl
        (by show 512 + j.val = min (t.val / 2 % 2) (t.val % 2) * 512 + j.val; omega) rfl

/-! ## The written blocks tile the output array -/

/-- An index of the output array is in point t's block iff each coordinate is in the block's range on its axis. -/
theorem mem_blk3 (t : Fin cfg1.N) (i : S96x1024x64.Idx) :
    i ∈ ((cfg1.win 3).blk t).view.set ↔ ∀ a : Fin 3, win1_3.index t a * S4x512x64.size a ≤ (i a).val ∧ (i a).val < win1_3.index t a * S4x512x64.size a + S4x512x64.size a := by
  show i ∈ ((View.whole main_v16).slice (win1_3.rect t)).set ↔ _
  rw [View.set_slice_whole, Rect.mem_set_unit]
  exact Iff.rfl

/-- Every entry (g, q, d) of the output array is in the block of the odd point 4·(g / 4) + 2·(q / 512) + 1. -/
theorem cover3 (i : S96x1024x64.Idx) : ∃ t : Fin cfg1.N, (cfg1.win 3).flush t = true ∧ i ∈ ((cfg1.win 3).blk t).view.set := by
  have hi0 : (i 0).val < 96 := (i 0).isLt
  have hi1 : (i 1).val < 1024 := (i 1).isLt
  have hi2 : (i 2).val < 64 := (i 2).isLt
  have hN : cfg1.N = 96 := N_1
  have hlt : 4 * ((i 0).val / 4) + 2 * ((i 1).val / 512) + 1 < cfg1.N := by omega
  have hv : (⟨4 * ((i 0).val / 4) + 2 * ((i 1).val / 512) + 1, hlt⟩ : Fin cfg1.N).val = 4 * ((i 0).val / 4) + 2 * ((i 1).val / 512) + 1 := rfl
  obtain ⟨-, -, -, -, -, -, -, -, -, e0, e1, e2, -⟩ := idx_facts ⟨4 * ((i 0).val / 4) + 2 * ((i 1).val / 512) + 1, hlt⟩
  refine ⟨⟨4 * ((i 0).val / 4) + 2 * ((i 1).val / 512) + 1, hlt⟩, (flush1_3 _).mpr (by omega), ?_⟩
  rw [mem_blk3]
  intro a
  match a with
  | ⟨0, _⟩ =>
    show win1_3.index ⟨4 * ((i 0).val / 4) + 2 * ((i 1).val / 512) + 1, hlt⟩ (0 : Fin 3) * 4 ≤ (i 0).val
      ∧ (i 0).val < win1_3.index ⟨4 * ((i 0).val / 4) + 2 * ((i 1).val / 512) + 1, hlt⟩ (0 : Fin 3) * 4 + 4
    omega
  | ⟨1, _⟩ =>
    show win1_3.index ⟨4 * ((i 0).val / 4) + 2 * ((i 1).val / 512) + 1, hlt⟩ (1 : Fin 3) * 512 ≤ (i 1).val
      ∧ (i 1).val < win1_3.index ⟨4 * ((i 0).val / 4) + 2 * ((i 1).val / 512) + 1, hlt⟩ (1 : Fin 3) * 512 + 512
    omega
  | ⟨2, _⟩ =>
    show win1_3.index ⟨4 * ((i 0).val / 4) + 2 * ((i 1).val / 512) + 1, hlt⟩ (2 : Fin 3) * 64 ≤ (i 2).val
      ∧ (i 2).val < win1_3.index ⟨4 * ((i 0).val / 4) + 2 * ((i 1).val / 512) + 1, hlt⟩ (2 : Fin 3) * 64 + 64
    omega

/-! ## The array -/

/-- After the region the output array holds the attention result of the three arrays the region found, given the three
    step equations of the running total. -/
theorem arr1_of (c : Dev nD)
    (hA : ∀ t : Fin cfg1.N, t.val % 2 = 0 → (outsAt1 V c t.val t.isLt).2
      = k1_pay2 (grid1.coords t) (iblk1 V c 0 t) (iblk1 V c 1 t) (iblk1 V c 2 t) (k1_pay1 (F := Ideal)))
    (hB : ∀ (t : Fin cfg1.N) (h : t.val % 4 = 1), (outsAt1 V c t.val t.isLt).1
      = (outsAt1 V c (t.val - 1) (by have := t.isLt; omega)).2)
    (hC : ∀ (t : Fin cfg1.N) (h : t.val % 4 = 3), (outsAt1 V c t.val t.isLt).1
      = k1_pay2 (grid1.coords t) (iblk1 V c 0 t) (iblk1 V c 1 t) (iblk1 V c 2 t) (outsAt1 V c (t.val - 1) (by have := t.isLt; omega)).2) :
    (dat1 V c).arrAt 3 cfg1.N = Spec.attnRows (V c main_v9) (V c main_v12) (V c main_v15) :=
  (dat1 V c).arrAt_eq_of_cover 3 _ (fun t hf => flushed3_eq V c hA hB hC t hf) cover3

/-- After the region the output array holds the attention result of the three arrays the region found. -/
theorem arr1 (c : Dev nD) :
    (dat1 V c).arrAt 3 cfg1.N = Spec.attnRows (V c main_v9) (V c main_v12) (V c main_v15) :=
  arr1_of V c (fun t h => outs_even V c t h) (fun t h => outs_one V c t h) (fun t h => outs_three V c t h)

end Cert.KernelIdeal.AttnValue

end
-- ==== Proof.lean ====
/-
  The five claims about the kernel program (a projection kernel and a causal rectified-attention kernel among host
  layout operations) and its reference.
  Frames: each kernel program, at its float instance, runs as five segments — host operations, the projection kernel,
  host operations, the attention kernel, host operations —, terminates without a fault and ends with every unscoped
  buffer at contents computed by a fold from the launch memory; no segment writes an argument. The reference's frame is
  its run with the result dropped.
  The idealization rewrote nothing, so it preserves the program trivially.
  Equal results on the extended reals: the kernel program's result buffer ends at the reference's stages of the three
  arguments — projection, the three thirds laid out as heads, attention, heads laid back as rows. The projection kernel
  leaves, block by block, the matrix product with the weight's transpose plus the bias; the attention kernel accumulates
  for each block of 512 query rows the contributions of the key blocks on or below the diagonal, scaling the queries
  by 1/8 before the score product where the reference scales the scores after it: multiplication by a nonnegative real
  distributes over every sum of extended reals, the key rows above the diagonal contribute zero, and a sum over 1024
  key rows is the sum of its two halves.
-/
import proofs.«159418_j18717467476434_2_alg».proof.Defs
import proofs.«159418_j18717467476434_2_alg».proof.Proof.Gen.Kernel
import proofs.«159418_j18717467476434_2_alg».proof.Proof.Gen.KernelIdeal
import proofs.«159418_j18717467476434_2_alg».proof.Proof.Gen.ReferenceIdeal
import proofs.«159418_j18717467476434_2_alg».proof.Proof.Gen.ReferenceIdeal.Run
import proofs.«159418_j18717467476434_2_alg».proof.Proof.Gen.ReferenceIdeal.Read
import proofs.«159418_j18717467476434_2_alg».proof.Proof.Gen.Pre_finite_inputs
import proofs.«159418_j18717467476434_2_alg».proof.Proof.RunK
import proofs.«159418_j18717467476434_2_alg».proof.Proof.Run
import proofs.«159418_j18717467476434_2_alg».proof.Proof.Bridge
import proofs.«159418_j18717467476434_2_alg».proof.Proof.QkvValue
import proofs.«159418_j18717467476434_2_alg».proof.Proof.AttnValue
import proofs.«159418_j18717467476434_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Run.frame m ρ
theorem frame_ideal : Cert.frame_KernelIdeal := fun m ρ _ => Cert.KernelIdeal.Run.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at the reference's stages of the
    arguments. -/
theorem algebraic : Cert.algebraic_KernelIdeal_ReferenceIdeal := by
  intro m ρ m' ρ' _ hagree
  refine ⟨fun c => Cert.RefSide.tailT (Cert.RefSide.attnT
      (Cert.RefSide.qT (Cert.RefSide.projT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))))
      (Cert.RefSide.kT (Cert.RefSide.projT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))))
      (Cert.RefSide.vT (Cert.RefSide.projT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))))), ?_, ?_⟩
  · refine (θ_run Cert.KernelIdeal.defs _ _).mono (fun r h c => ⟨?_, ?_, ?_, ?_⟩) (Cert.KernelIdeal.Run.run_all m ρ)
    · exact (h c _ (Cert.KernelIdeal.Run.mem_uc Cert.KernelIdeal.main_v19 (by decide))).trans
        (Cert.KernelIdeal.Bridge.result_eq m ρ c (Cert.KernelIdeal.QkvValue.arr0 _ c) (Cert.KernelIdeal.AttnValue.arr1 _ c))
    · exact (h c _ (Cert.KernelIdeal.Run.mem_uc Cert.KernelIdeal.main_arg0 (by decide))).trans (Cert.KernelIdeal.Run.W5_main_arg0 m ρ c)
    · exact (h c _ (Cert.KernelIdeal.Run.mem_uc Cert.KernelIdeal.main_arg1 (by decide))).trans (Cert.KernelIdeal.Run.W5_main_arg1 m ρ c)
    · exact (h c _ (Cert.KernelIdeal.Run.mem_uc Cert.KernelIdeal.main_arg2 (by decide))).trans (Cert.KernelIdeal.Run.W5_main_arg2 m ρ c)
  · refine (θ_run Cert.ReferenceIdeal.defs _ _).mono (fun _ h c => ⟨(h c).1.trans ?_, (h c).2⟩) (Cert.RefSide.ref_run m' ρ')
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
